-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S27x32 : Shape := ⟨2, ![27, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S27x32 : S_.BroadcastsInDim S27x32 (![] : Fin 0 → Fin S27x32.rank)
  reducesTo_S27x32_S_d0_1 : S27x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2097152x3 .f32) (main_arg1 : FVec F S27x32 .f32) (main_arg2 : FVec F S32 .f32) (main_arg3 : FVec F S32x1 .f32) (main_arg4 : FVec F S1 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S27x32 .f32 := Host.absf main_arg1
  let main_cst_0 : FVec F S_ .f32 := constant S_ .f32 0x7F800000#32
  let main_v5 : FVec F S27x32 .f32 := broadcastInDim S27x32 ![] bcast_S_S27x32 main_cst_0
  let main_v6 : IVec S27x32 1 := cmpf .olt main_v4 main_v5
  let main_c_1 : IVec S_ 1 := constantI S_ 1 1#1
  let main_v7 : IVec S_ 1 := (fun x v => Host.reduce IntOp.andi x v reducesTo_S27x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_v13 main_v16
-- ==== Kernel.lean ====
abbrev S2097152x3 : Shape := ⟨2, ![2097152, 3]⟩
abbrev S27x32 : Shape := ⟨2, ![27, 32]⟩
abbrev S32 : Shape := ⟨1, ![32]⟩
abbrev S32x1 : Shape := ⟨2, ![32, 1]⟩
abbrev S1 : Shape := ⟨1, ![1]⟩
abbrev S3x2097152 : Shape := ⟨2, ![3, 2097152]⟩
abbrev S_ : Shape := ⟨0, ![]⟩
abbrev S72x32 : Shape := ⟨2, ![72, 32]⟩
abbrev S3x32 : Shape := ⟨2, ![3, 32]⟩
abbrev S32x72 : Shape := ⟨2, ![32, 72]⟩
abbrev S1x32 : Shape := ⟨2, ![1, 32]⟩
abbrev S1x1 : Shape := ⟨2, ![1, 1]⟩
abbrev S1x2097152 : Shape := ⟨2, ![1, 2097152]⟩
abbrev S3x65536 : Shape := ⟨2, ![3, 65536]⟩
abbrev S1x65536 : Shape := ⟨2, ![1, 65536]⟩
abbrev S3x4096 : Shape := ⟨2, ![3, 4096]⟩
abbrev S5x4096 : Shape := ⟨2, ![5, 4096]⟩
abbrev S8x4096 : Shape := ⟨2, ![8, 4096]⟩
abbrev S72x4096 : Shape := ⟨2, ![72, 4096]⟩
abbrev S32x4096 : Shape := ⟨2, ![32, 4096]⟩
abbrev S1x4096 : Shape := ⟨2, ![1, 4096]⟩
abbrev S2097152x1 : Shape := ⟨2, ![2097152, 1]⟩

abbrev nBuf : Space → Nat
  | .hbm => 50
  | .vmem => 8
  | .smem => 0
  | _ => 0

abbrev bufTy : (tb : Table) → Fin (tcTables nBuf tb) → BufTy
  | .hbm, ⟨0, _⟩ => ⟨S2097152x3, .f32⟩
  | .hbm, ⟨1, _⟩ => ⟨S27x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S3x2097152, .f32⟩
  | .hbm, ⟨6, _⟩ => ⟨S_, .f32⟩
  | .hbm, ⟨7, _⟩ => ⟨S72x32, .f32⟩
  | .hbm, ⟨8, _⟩ => ⟨S3x32, .f32⟩
  | .hbm, ⟨9, _⟩ => ⟨S_, .i32⟩
  | .hbm, ⟨10, _⟩ => ⟨S1, .i32⟩
  | .hbm, ⟨11, _⟩ => ⟨S72x32, .f32⟩
  | .hbm, ⟨12, _⟩ => ⟨S3x32, .f32⟩
  | .hbm, ⟨13, _⟩ => ⟨S_, .i32⟩
  | .hbm, ⟨14, _⟩ => ⟨S1, .i32⟩
  | .hbm, ⟨15, _⟩ => ⟨S72x32, .f32⟩
  | .hbm, ⟨16, _⟩ => ⟨S3x32, .f32⟩
  | .hbm, ⟨17, _⟩ => ⟨S_, .i32⟩
  | .hbm, ⟨18, _⟩ => ⟨S1, .i32⟩
  | .hbm, ⟨19, _⟩ => ⟨S72x32, .f32⟩
  | .hbm, ⟨20, _⟩ => ⟨S3x32, .f32⟩
  | .hbm, ⟨21, _⟩ => ⟨S_, .i32⟩
  | .hbm, ⟨22, _⟩ => ⟨S1, .i32⟩
  | .hbm, ⟨23, _⟩ => ⟨S72x32, .f32⟩
  | .hbm, ⟨24, _⟩ => ⟨S3x32, .f32⟩
  | .hbm, ⟨25, _⟩ => ⟨S_, .i32⟩
  | .hbm, ⟨26, _⟩ => ⟨S1, .i32⟩
  | .hbm, ⟨27, _⟩ => ⟨S72x32, .f32⟩
  | .hbm, ⟨28, _⟩ => ⟨S3x32, .f32⟩
  | .hbm, ⟨29, _⟩ => ⟨S_, .i32⟩
  | .hbm, ⟨30, _⟩ => ⟨S1, .i32⟩
  | .hbm, ⟨31, _⟩ => ⟨S72x32, .f32⟩
  | .hbm, ⟨32, _⟩ => ⟨S3x32, .f32⟩
  | .hbm, ⟨33, _⟩ => ⟨S_, .i32⟩
  | .hbm, ⟨34, _⟩ => ⟨S1, .i32⟩
  | .hbm, ⟨35, _⟩ => ⟨S72x32, .f32⟩
  | .hbm, ⟨36, _⟩ => ⟨S3x32, .f32⟩
  | .hbm, ⟨37, _⟩ => ⟨S_, .i32⟩
  | .hbm, ⟨38, _⟩ => ⟨S1, .i32⟩
  | .hbm, ⟨39, _⟩ => ⟨S72x32, .f32⟩
  | .hbm, ⟨40, _⟩ => ⟨S3x32, .f32⟩
  | .hbm, ⟨41, _⟩ => ⟨S_, .i32⟩
  | .hbm, ⟨42, _⟩ => ⟨S1, .i32⟩
  | .hbm, ⟨43, _⟩ => ⟨S72x32, .f32⟩
  | .hbm, ⟨44, _⟩ => ⟨S32x72, .f32⟩
  | .hbm, ⟨45, _⟩ => ⟨S32x1, .f32⟩
  | .hbm, ⟨46, _⟩ => ⟨S1x32, .f32⟩
  | .hbm, ⟨47, _⟩ => ⟨S1x1, .f32⟩
  | .hbm, ⟨48, _⟩ => ⟨S1x2097152, .f32⟩
  | .hbm, ⟨49, _⟩ => ⟨S2097152x1, .f32⟩
  | .local _ .vmem, ⟨0, _⟩ => ⟨S3x65536, .f32⟩
  | .local _ .vmem, ⟨1, _⟩ => ⟨S3x65536, .f32⟩
  | .local _ .vmem, ⟨2, _⟩ => ⟨S32x72, .f32⟩
  | .local _ .vmem, ⟨3, _⟩ => ⟨S32x1, .f32⟩
  | .local _ .vmem, ⟨4, _⟩ => ⟨S1x32, .f32⟩
  | .local _ .vmem, ⟨5, _⟩ => ⟨S1x1, .f32⟩
  | .local _ .vmem, ⟨6, _⟩ => ⟨S1x65536, .f32⟩
  | .local _ .vmem, ⟨7, _⟩ => ⟨S1x65536, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c4096_i32 : BitVec 32 := 4096#32
  let v13 : BitVec 32 := Scalar.muli v12 c4096_i32
  v13
def k0_off1 (k0_t1 : Fin k0_t1_loop.trips) : Fin 2 → Nat :=
  let c0_10 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c4096_i32 : BitVec 32 := 4096#32
  let v13 : BitVec 32 := Scalar.muli v12 c4096_i32
  let v14 : BitVec 32 := v13
  let v15 : Index := Scalar.indexCast v14
  ![0, v15.toNat]
def k0_off2 (k0_t1 : Fin k0_t1_loop.trips) : Fin 2 → Nat :=
  let c0_19 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v11 : BitVec 32 := Scalar.muli arg7 c1_i32_8
  let v12 : BitVec 32 := Scalar.addi c0_i32_9 v11
  let c4096_i32 : BitVec 32 := 4096#32
  let v13 : BitVec 32 := Scalar.muli v12 c4096_i32
  let v14 : BitVec 32 := v13
  let v57 : Index := Scalar.indexCast v14
  ![0, v57.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2097152x3_S3x2097152_1_0 : S2097152x3.Transposes [1, 0] S3x2097152
  bcast_S_S72x32 : S_.BroadcastsInDim S72x32 (![] : Fin 0 → Fin S72x32.rank)
  slices_S27x32_S3x32_0_0 : S27x32.Slices ![0, 0] S3x32
  bcast_S_S1 : S_.BroadcastsInDim S1 (![] : Fin 0 → Fin S1.rank)
  slices_S27x32_S3x32_3_0 : S27x32.Slices ![3, 0] S3x32
  slices_S27x32_S3x32_6_0 : S27x32.Slices ![6, 0] S3x32
  slices_S27x32_S3x32_9_0 : S27x32.Slices ![9, 0] S3x32
  slices_S27x32_S3x32_12_0 : S27x32.Slices ![12, 0] S3x32
  slices_S27x32_S3x32_15_0 : S27x32.Slices ![15, 0] S3x32
  slices_S27x32_S3x32_18_0 : S27x32.Slices ![18, 0] S3x32
  slices_S27x32_S3x32_21_0 : S27x32.Slices ![21, 0] S3x32
  slices_S27x32_S3x32_24_0 : S27x32.Slices ![24, 0] S3x32
  transposes_S72x32_S32x72_1_0 : S72x32.Transposes [1, 0] S32x72
  shapeCasts_S32_S32x1 : S32.ShapeCasts S32x1
  transposes_S32x1_S1x32_1_0 : S32x1.Transposes [1, 0] S1x32
  shapeCasts_S1_S1x1 : S1.ShapeCasts S1x1
  inb_S32x72_S32x72_0_0 : ∀ a, (![0, 0] : Fin 2 → Nat) a + S32x72.size a ≤ S32x72.size a
  h_S32x72 : 0 < S32x72.numel
  shapeCasts_S32x72_S32x72 : S32x72.ShapeCasts S32x72
  bitsLt_bf16_f32 : FTy.bits .bf16 < FTy.bits .f32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S3x4096 : 0 < S3x4096.numel
  shapeCasts_S3x4096_S3x4096 : S3x4096.ShapeCasts S3x4096
  concatenates_S3x4096_S5x4096_S8x4096_d0 : Shape.Concatenates [S3x4096, S5x4096] S8x4096 0
  concatenates_S8x4096_S8x4096_S8x4096_S8x4096_S8x4096_S8x4096_S8x4096_S8x4096_S8x4096_S72x4096_d0 : Shape.Concatenates [S8x4096, S8x4096, S8x4096, S8x4096, S8x4096, S8x4096, S8x4096, S8x4096, S8x4096] S72x4096 0
  broadcasts_S32x1_S32x4096 : S32x1.Broadcasts S32x4096
  broadcasts_S1x1_S1x4096 : S1x1.Broadcasts S1x4096
  h_S1x4096 : 0 < S1x4096.numel
  shapeCasts_S1x2097152_S2097152x1 : S1x2097152.ShapeCasts S2097152x1
  scatter_S72x32_S1_S3x32_01_n_0_0_wf : ScatterDims.WF S72x32 S1 S3x32 [0, 1] [] [0] 0
  dot_S32x72_S72x4096_S32x4096_1_0_0_1_n_n_wf : DotDims.WF S32x72 S72x4096 S32x4096 [1] [0] [0] [1] [] []
  dot_S1x32_S32x4096_S1x4096_1_0_0_1_n_n_wf : DotDims.WF S1x32 S32x4096 S1x4096 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S3x4096.size a ≤ S3x65536.size a
  k0_off2_inb : ∀ k0_t1 : Fin k0_t1_loop.trips, ∀ a, (k0_off2 k0_t1) a + S1x4096.size a ≤ S1x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x2097152.size a
  hwx0_0 : ∀ i : grid0.Coords, EltTy.bits .f32 = 32 ∨ (Rect.block (s := S3x2097152) S3x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x72.size a ≤ S32x72.size a
  hwx0_1 : ∀ i : grid0.Coords, EltTy.bits .f32 = 32 ∨ (Rect.block (s := S32x72) S32x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x65536.size a ≤ S1x2097152.size a
  hwx0_5 : ∀ i : grid0.Coords, EltTy.bits .f32 = 32 ∨ (Rect.block (s := S1x2097152) S1x65536.size (cc0_transform_5 i) (hinb0_5 i)).WholeWords (EltTy.packing .f32)

variable [Facts₀]

def scatter_S72x32_S1_S3x32_01_n_0_0 : ScatterDims S72x32 S1 S3x32 where
  updateWindowDims := [0, 1]
  insertedWindowDims := []
  scatterDimsToOperandDims := [0]
  indexVectorDim := 0
  wf := scatter_S72x32_S1_S3x32_01_n_0_0_wf
def dot_S32x72_S72x4096_S32x4096_1_0_0_1_n_n : DotDims S32x72 S72x4096 S32x4096 where
  lhsContracting := [1]
  rhsContracting := [0]
  lhsNonContracting := [0]
  rhsNonContracting := [1]
  lhsBatch := []
  rhsBatch := []
  wf := dot_S32x72_S72x4096_S32x4096_1_0_0_1_n_n_wf
def dot_S1x32_S32x4096_S1x4096_1_0_0_1_n_n : DotDims S1x32 S32x4096 S1x4096 where
  lhsContracting := [1]
  rhsContracting := [0]
  lhsNonContracting := [0]
  rhsNonContracting := [1]
  lhsBatch := []
  rhsBatch := []
  wf := dot_S1x32_S32x4096_S1x4096_1_0_0_1_n_n_wf

abbrev win0_0 : Pipeline.Window sig grid0 :=
  Pipeline.Window.ofSpec (Memref.whole main_v0) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S32x72.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S27x32 : Shape := ⟨2, ![27, 32]⟩
abbrev S32 : Shape := ⟨1, ![32]⟩
abbrev S32x1 : Shape := ⟨2, ![32, 1]⟩
abbrev S1 : Shape := ⟨1, ![1]⟩
abbrev S4 : Shape := ⟨1, ![4]⟩
abbrev S2097152x1x3 : Shape := ⟨3, ![2097152, 1, 3]⟩
abbrev S4x1 : Shape := ⟨2, ![4, 1]⟩
abbrev S1x4x1 : Shape := ⟨3, ![1, 4, 1]⟩
abbrev S2097152x4x3 : Shape := ⟨3, ![2097152, 4, 3]⟩
abbrev S2097152x4x6 : Shape := ⟨3, ![2097152, 4, 6]⟩
abbrev S2097152x24 : Shape := ⟨2, ![2097152, 24]⟩
abbrev S2097152x27 : Shape := ⟨2, ![2097152, 27]⟩
abbrev S2097152x32 : Shape := ⟨2, ![2097152, 32]⟩
abbrev S1x32 : Shape := ⟨2, ![1, 32]⟩
abbrev S_ : Shape := ⟨0, ![]⟩
abbrev S2097152x1 : Shape := ⟨2, ![2097152, 1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S27x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S4, .f32⟩
  | .hbm, ⟨6, _⟩ => ⟨S2097152x1x3, .f32⟩
  | .hbm, ⟨7, _⟩ => ⟨S4x1, .f32⟩
  | .hbm, ⟨8, _⟩ => ⟨S1x4x1, .f32⟩
  | .hbm, ⟨9, _⟩ => ⟨S2097152x4x3, .f32⟩
  | .hbm, ⟨10, _⟩ => ⟨S2097152x4x3, .f32⟩
  | .hbm, ⟨11, _⟩ => ⟨S2097152x4x3, .f32⟩
  | .hbm, ⟨12, _⟩ => ⟨S2097152x4x3, .f32⟩
  | .hbm, ⟨13, _⟩ => ⟨S2097152x4x3, .f32⟩
  | .hbm, ⟨14, _⟩ => ⟨S2097152x4x6, .f32⟩
  | .hbm, ⟨15, _⟩ => ⟨S2097152x24, .f32⟩
  | .hbm, ⟨16, _⟩ => ⟨S2097152x27, .f32⟩
  | .hbm, ⟨17, _⟩ => ⟨S2097152x32, .f32⟩
  | .hbm, ⟨18, _⟩ => ⟨S1x32, .f32⟩
  | .hbm, ⟨19, _⟩ => ⟨S2097152x32, .f32⟩
  | .hbm, ⟨20, _⟩ => ⟨S2097152x32, .f32⟩
  | .hbm, ⟨21, _⟩ => ⟨S_, .f32⟩
  | .hbm, ⟨22, _⟩ => ⟨S2097152x32, .f32⟩
  | .hbm, ⟨23, _⟩ => ⟨S2097152x32, .f32⟩
  | .hbm, ⟨24, _⟩ => ⟨S2097152x1, .f32⟩
  | .hbm, ⟨25, _⟩ => ⟨S1x1, .f32⟩
  | .hbm, ⟨26, _⟩ => ⟨S2097152x1, .f32⟩
  | .hbm, ⟨27, _⟩ => ⟨S2097152x1, .f32⟩
  | .hbm, ⟨28, _⟩ => ⟨S_, .f32⟩
  | .hbm, ⟨29, _⟩ => ⟨S2097152x1, .f32⟩
  | .hbm, ⟨30, _⟩ => ⟨S2097152x1, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S2097152x3_S2097152x1x3_0_2 : S2097152x3.BroadcastsInDim S2097152x1x3 (![0, 2] : Fin 2 → Fin S2097152x1x3.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S2097152x1x3_S2097152x4x3_0_1_2 : S2097152x1x3.BroadcastsInDim S2097152x4x3 (![0, 1, 2] : Fin 3 → Fin S2097152x4x3.rank)
  bcast_S1x4x1_S2097152x4x3_0_1_2 : S1x4x1.BroadcastsInDim S2097152x4x3 (![0, 1, 2] : Fin 3 → Fin S2097152x4x3.rank)
  concatenates_S2097152x4x3_S2097152x4x3_S2097152x4x6_d2 : Shape.Concatenates [S2097152x4x3, S2097152x4x3] S2097152x4x6 2
  shapeCasts_S2097152x4x6_S2097152x24 : S2097152x4x6.ShapeCasts S2097152x24
  concatenates_S2097152x3_S2097152x24_S2097152x27_d1 : Shape.Concatenates [S2097152x3, S2097152x24] S2097152x27 1
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  bcast_S_S2097152x1 : S_.BroadcastsInDim S2097152x1 (![] : Fin 0 → Fin S2097152x1.rank)
  dot_S2097152x27_S27x32_S2097152x32_1_0_0_1_n_n_wf : DotDims.WF S2097152x27 S27x32 S2097152x32 [1] [0] [0] [1] [] []
  dot_S2097152x32_S32x1_S2097152x1_1_0_0_1_n_n_wf : DotDims.WF S2097152x32 S32x1 S2097152x1 [1] [0] [0] [1] [] []

variable [Facts₀]

def dot_S2097152x27_S27x32_S2097152x32_1_0_0_1_n_n : DotDims S2097152x27 S27x32 S2097152x32 where
  lhsContracting := [1]
  rhsContracting := [0]
  lhsNonContracting := [0]
  rhsNonContracting := [1]
  lhsBatch := []
  rhsBatch := []
  wf := dot_S2097152x27_S27x32_S2097152x32_1_0_0_1_n_n_wf
def dot_S2097152x32_S32x1_S2097152x1_1_0_0_1_n_n : DotDims S2097152x32 S32x1 S2097152x1 where
  lhsContracting := [1]
  rhsContracting := [0]
  lhsNonContracting := [0]
  rhsNonContracting := [1]
  lhsBatch := []
  rhsBatch := []
  wf := dot_S2097152x32_S32x1_S2097152x1_1_0_0_1_n_n_wf

class Facts : Prop extends Facts₀ where

variable [Facts]
-- ==== Proof.Pieces.lean ====
/-
  What the kernel body stores into its output block, store by store.

  The body runs sixteen trips. Trip k loads the three coordinate rows of the 4096 points at lanes
  4096·k … 4096·k + 4095 of the input block, computes the network on them (one pure term of the loaded
  weights and the loaded chunk), and stores the 4096 results at the same lanes of the output block.
  So every store of the whole body is, for some trip k, the rectangle of lanes 4096·k … of the output
  block with that trip's term as payload; the weights, loaded whole before the loop, are the blocks
  themselves.
-/
import proofs.«177924_j11991548690836_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe
open Idealize.SL Idealize.SL.Sem
open Cert.KernelIdeal Cert.KernelIdeal.Gen

variable {F : FTy → Type} [FloatOps F]

/-- Trip k reads and writes at lane offset 4096·k of row 0. -/
theorem off1_eq : ∀ k : Fin k0_t1_loop.trips, k0_off1 k 0 = 0 ∧ k0_off1 k 1 = 4096 * k.val := by decide +kernel
theorem off2_eq : ∀ k : Fin k0_t1_loop.trips, k0_off2 k 0 = 0 ∧ k0_off2 k 1 = 4096 * k.val := by decide +kernel

/-- The one store of trip k: the lanes of trip k, the network's term of the weights and of the chunk loaded at
    the same lanes. -/
def piece (v0 : Vec F S32x72 .f32) (v3 : Vec F S32x1 .f32) (v5 : Vec F S1x32 .f32) (v8 : Vec F S1x1 .f32)
    (X : Vec F S3x65536 .f32) (k : Fin k0_t1_loop.trips) : View.Piece (Elt F) S1x65536 .f32 :=
  ⟨Rect.unit (s := S1x65536) (k0_off2 k) S1x4096.size (k0_off2_inb k),
    k0_pay5 (k0_pay1 v0) (k0_pay2 v3) (k0_pay3 v5) (k0_pay4 v8)
      (View.ld X (Rect.unit (s := S3x65536) (k0_off1 k) S3x4096.size (k0_off1_inb k)))⟩

/-- Trip k makes exactly one store, and it is that piece. -/
theorem tripL_eq (𝒱 : Variants) (c : Dev nD) (bd : Option 𝒱.V) (i : grid0.Coords) (arg1 : Memref sig .tc .vmem S3x65536 .f32) (harg1 : arg1.IsWhole) (arg2 : Memref sig .tc .vmem S32x72 .f32) (harg2 : arg2.IsWhole) (arg3 : Memref sig .tc .vmem S32x1 .f32) (harg3 : arg3.IsWhole) (arg4 : Memref sig .tc .vmem S1x32 .f32) (harg4 : arg4.IsWhole) (arg5 : Memref sig .tc .vmem S1x1 .f32) (harg5 : arg5.IsWhole) (arg6 : Memref sig .tc .vmem S1x65536 .f32) (harg6 : arg6.IsWhole) (v0 : Vec F S32x72 .f32) (v3 : Vec F S32x1 .f32) (v5 : Vec F S1x32 .f32) (v8 : Vec F S1x1 .f32) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 v0 v3 v5 v8 X_arg1 k
      = [piece v0 v3 v5 v8 (arg1.view.read (Elt F) X_arg1) k] := by
  unfold tripL_k0_t1 trip_k0_t1
  dsimp only
  unfold trip_k0_t1.sl.r
  rfl

/-- Every store of the trips before n is some trip's piece. -/
theorem mem_pb (𝒱 : Variants) (c : Dev nD) (bd : Option 𝒱.V) (i : grid0.Coords) (arg1 : Memref sig .tc .vmem S3x65536 .f32) (harg1 : arg1.IsWhole) (arg2 : Memref sig .tc .vmem S32x72 .f32) (harg2 : arg2.IsWhole) (arg3 : Memref sig .tc .vmem S32x1 .f32) (harg3 : arg3.IsWhole) (arg4 : Memref sig .tc .vmem S1x32 .f32) (harg4 : arg4.IsWhole) (arg5 : Memref sig .tc .vmem S1x1 .f32) (harg5 : arg5.IsWhole) (arg6 : Memref sig .tc .vmem S1x65536 .f32) (harg6 : arg6.IsWhole) (v0 : Vec F S32x72 .f32) (v3 : Vec F S32x1 .f32) (v5 : Vec F S1x32 .f32) (v8 : Vec F S1x1 .f32) (X_arg1 : BufTy.Contents (Elt F) arg1.view.ty) :
    ∀ (n : ℕ) (p : View.Piece (Elt F) S1x65536 .f32),
      p ∈ pb_k0_t1 (F := F) 𝒱 c bd i arg1 harg1 arg2 harg2 arg3 harg3 arg4 harg4 arg5 harg5 arg6 harg6 v0 v3 v5 v8 X_arg1 n →
      ∃ k : Fin k0_t1_loop.trips, p = piece v0 v3 v5 v8 (arg1.view.read (Elt F) X_arg1) k
  | 0, p, h => by rw [pb_k0_t1.eq_1] at h; exact absurd h List.not_mem_nil
  | n + 1, p, h => by
    rw [pb_k0_t1.eq_2] at h
    unfold pb_k0_t1Step at h
    by_cases hn : n < k0_t1_loop.trips
    · rw [dif_pos hn, List.mem_append] at h
      rcases h with h | h
      · rw [tripL_eq] at h
        exact ⟨⟨n, hn⟩, List.mem_singleton.mp h⟩
      · exact mem_pb 𝒱 c bd i arg1 harg1 arg2 harg2 arg3 harg3 arg4 harg4 arg5 harg5 arg6 harg6 v0 v3 v5 v8 X_arg1 n p h
    · rw [dif_neg hn] at h
      exact mem_pb 𝒱 c bd i arg1 harg1 arg2 harg2 arg3 harg3 arg4 harg4 arg5 harg5 arg6 harg6 v0 v3 v5 v8 X_arg1 n p h

/-- Every store of the whole body, on staging buffers holding the blocks x0 … x4, is some trip's piece over
    the blocks themselves: the four weight loads before the loop read the whole blocks. -/
theorem run_pieces (c : Dev nD) (i : grid0.Coords) (arg1 : Memref sig .tc .vmem S3x65536 .f32) (harg1 : arg1.IsWhole) (arg2 : Memref sig .tc .vmem S32x72 .f32) (harg2 : arg2.IsWhole) (arg3 : Memref sig .tc .vmem S32x1 .f32) (harg3 : arg3.IsWhole) (arg4 : Memref sig .tc .vmem S1x32 .f32) (harg4 : arg4.IsWhole) (arg5 : Memref sig .tc .vmem S1x1 .f32) (harg5 : arg5.IsWhole) (arg6 : Memref sig .tc .vmem S1x65536 .f32) (harg6 : arg6.IsWhole)
    (x0 : Vec F S3x65536 .f32) (x1 : Vec F S32x72 .f32) (x2 : Vec F S32x1 .f32) (x3 : Vec F S1x32 .f32) (x4 : Vec F S1x1 .f32) (p : View.Piece (Elt F) S1x65536 .f32)
    (h : p ∈ (kernelRun0_A (F := F) c i arg1 harg1 arg2 harg2 arg3 harg3 arg4 harg4 arg5 harg5 arg6 harg6 x0 x1 x2 x3 x4).1) :
    ∃ k : Fin k0_t1_loop.trips, p = piece x1 x2 x3 x4 x0 k := by
  unfold kernelRun0_A at h
  dsimp only at h
  obtain ⟨k, hk⟩ := mem_pb _ _ _ _ _ _ _ _ _ _ _ _ _ _ _ _ _ _ _ _ _ _ _ h
  refine ⟨k, hk.trans ?_⟩
  rw [harg1.read_unread]
  have e1 : View.readAt (Elt F) arg2.view (Rect.unit ![0, 0] ![32, 72] inb_S32x72_S32x72_0_0).toLoadRect (harg2.unread x1) = x1 := by
    rw [View.readAt_eq_ld, harg2.read_unread]; exact View.ld_unit_zero (S := S32x72) (by funext a; fin_cases a <;> rfl) _ x1
  have e2 : View.readAt (Elt F) arg3.view (Rect.unit ![0, 0] ![32, 1] inb_S32x1_S32x1_0_0).toLoadRect (harg3.unread x2) = x2 := by
    rw [View.readAt_eq_ld, harg3.read_unread]; exact View.ld_unit_zero (S := S32x1) (by funext a; fin_cases a <;> rfl) _ x2
  have e3 : View.readAt (Elt F) arg4.view (Rect.unit ![0, 0] ![1, 32] inb_S1x32_S1x32_0_0).toLoadRect (harg4.unread x3) = x3 := by
    rw [View.readAt_eq_ld, harg4.read_unread]; exact View.ld_unit_zero (S := S1x32) (by funext a; fin_cases a <;> rfl) _ x3
  have e4 : View.readAt (Elt F) arg5.view (Rect.unit ![0, 0] ![1, 1] inb_S1x1_S1x1_0_0).toLoadRect (harg5.unread x4) = x4 := by
    rw [View.readAt_eq_ld, harg5.read_unread]; exact View.ld_unit_zero (S := S1x1) (by funext a; fin_cases a <;> rfl) _ x4
  rw [e1, e2, e3, e4]

end Cert.KernelIdeal.Pieces

end
-- ==== Proof.Block.lean ====
/-
  The output block as one function of the lane.

  The body's sixteen stores tile the output block, and each store's payload is the network evaluated at the
  lanes it covers. So if G is a function of the block index with which every trip's payload agrees at the
  index the payload's entry is stored to, the block the body leaves is G: at any lane, the block holds the
  payload of the store covering that lane.
-/
import proofs.«177924_j11991548690836_2_alg».proof.Proof.Pieces

set_option maxRecDepth 16384

noncomputable section

namespace Cert.KernelIdeal.Block

open Idealize.ShloMosaic Idealize.ShloMosaic.TcCoe
open Idealize.SL Idealize.SL.Sem
open Cert.KernelIdeal Cert.KernelIdeal.Gen Cert.KernelIdeal.Pieces

variable {F : FTy → Type} [FloatOps F]

/-- What the body leaves in the output block, read at y, is G y, for any G every trip's payload agrees with. -/
theorem out0_apply_of (c : Dev nD) (i : grid0.Coords) (arg1 : Memref sig .tc .vmem S3x65536 .f32) (harg1 : arg1.IsWhole) (arg2 : Memref sig .tc .vmem S32x72 .f32) (harg2 : arg2.IsWhole) (arg3 : Memref sig .tc .vmem S32x1 .f32) (harg3 : arg3.IsWhole) (arg4 : Memref sig .tc .vmem S1x32 .f32) (harg4 : arg4.IsWhole) (arg5 : Memref sig .tc .vmem S1x1 .f32) (harg5 : arg5.IsWhole) (arg6 : Memref sig .tc .vmem S1x65536 .f32) (harg6 : arg6.IsWhole)
    (x0 : Vec F S3x65536 .f32) (x1 : Vec F S32x72 .f32) (x2 : Vec F S32x1 .f32) (x3 : Vec F S1x32 .f32) (x4 : Vec F S1x1 .f32) (G : Vec F S1x65536 .f32)
    (hG : ∀ (k : Fin k0_t1_loop.trips) (xl : (piece x1 x2 x3 x4 x0 k).1.shape.Idx),
      (piece x1 x2 x3 x4 x0 k).2 xl = G ((piece x1 x2 x3 x4 x0 k).1.emb xl))
    (y : S1x65536.Idx) :
    out0_A_5 (F := F) c i arg1 harg1 arg2 harg2 arg3 harg3 arg4 harg4 arg5 harg5 arg6 harg6 x0 x1 x2 x3 x4 y = G y := by
  unfold out0_A_5
  rw [View.read_writes_eq_canon _ _ _ (fun y => cover0_A_5 c i arg1 harg1 arg2 harg2 arg3 harg3 arg4 harg4 arg5 harg5 arg6 harg6 x0 x1 x2 x3 x4 y)]
  refine View.canon_apply_of_pieces G _ (fun p hp x => ?_) y (cover0_A_5 c i arg1 harg1 arg2 harg2 arg3 harg3 arg4 harg4 arg5 harg5 arg6 harg6 x0 x1 x2 x3 x4 y)
  obtain ⟨k, rfl⟩ := run_pieces c i arg1 harg1 arg2 harg2 arg3 harg3 arg4 harg4 arg5 harg5 arg6 harg6 x0 x1 x2 x3 x4 p hp
  exact hG k x

end Cert.KernelIdeal.Block

end
-- ==== Proof.Spec.lean ====
/-
  The network both programs compute, as one function of the five argument arrays over the extended reals.

  A point n of the input has three coordinates x(n,0), x(n,1), x(n,2).  Its positional encoding is nine
  triples: the coordinates themselves, then for each of the four frequencies w_f the sines sin(x(n,j)·w_f) and
  the cosines cos(x(n,j)·w_f).  Triple g, coordinate j is feature 3g+j of the 27 features.  The hidden layer is
  relu(Σ_{g,j} enc(n,g,j)·W1(3g+j,h) + b1(h)) for the 32 hidden units h, and the output is
  relu(Σ_h hidden(n,h)·W2(h,0) + b2(0)).  relu is the maximum with the f32 zero.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The arrays' index types, over literal extents. -/
abbrev IX := (⟨2, ![2097152, 3]⟩ : Shape).Idx
abbrev IW1 := (⟨2, ![27, 32]⟩ : Shape).Idx
abbrev IB1 := (⟨1, ![32]⟩ : Shape).Idx
abbrev IW2 := (⟨2, ![32, 1]⟩ : Shape).Idx
abbrev IB2 := (⟨1, ![1]⟩ : Shape).Idx
abbrev IO := (⟨2, ![2097152, 1]⟩ : Shape).Idx

/-- The f32 zero the two relus compare with. -/
def zero : EReal := Ideal.ofBits .f32 0x00000000#32

/-- The four frequencies 2^(10f/3), f = 0..3, each the f32 word both programs carry. -/
def freq : Fin 4 → EReal
  | ⟨0, _⟩ => Ideal.ofBits .f32 0x3F800000#32
  | ⟨1, _⟩ => Ideal.ofBits .f32 0x41214517#32
  | ⟨2, _⟩ => Ideal.ofBits .f32 0x42CB2FF4#32
  | ⟨_ + 3, _⟩ => Ideal.ofBits .f32 0x44800000#32

/-- Feature triple g of point n at coordinate j: the coordinate itself (g = 0), the sine at frequency f
    (g = 1 + 2f) or the cosine at frequency f (g = 2 + 2f). -/
def enc (x : IX → EReal) (n : Fin 2097152) (g : Fin 9) (j : Fin 3) : EReal :=
  match g with
  | ⟨0, _⟩ => x (ix2 n j)
  | ⟨1, _⟩ => Ideal.sin (x (ix2 n j) * freq 0)
  | ⟨2, _⟩ => Ideal.cos (x (ix2 n j) * freq 0)
  | ⟨3, _⟩ => Ideal.sin (x (ix2 n j) * freq 1)
  | ⟨4, _⟩ => Ideal.cos (x (ix2 n j) * freq 1)
  | ⟨5, _⟩ => Ideal.sin (x (ix2 n j) * freq 2)
  | ⟨6, _⟩ => Ideal.cos (x (ix2 n j) * freq 2)
  | ⟨7, _⟩ => Ideal.sin (x (ix2 n j) * freq 3)
  | ⟨_ + 8, _⟩ => Ideal.cos (x (ix2 n j) * freq 3)

/-- Feature 3g+j as a row of W1. -/
def feat (g : Fin 9) (j : Fin 3) : Fin 27 := ⟨3 * g.val + j.val, by omega⟩

/-- Row r of the 72-row padded layout belongs to triple r / 8 at position r % 8; the first three positions of
    a triple are features, the other five are padding. A feature position is row 3·(r/8) + r%8 of W1. -/
def padRow (r : Fin 72) (hr : r.val % 8 < 3) : Fin 27 := ⟨3 * (r.val / 8) + r.val % 8, by omega⟩

/-- W1 transposed and padded to 72 columns: column r of unit h holds W1(padRow r, h) at a feature position and
    the f32 zero at a padding position. -/
def padded (W1 : IW1 → EReal) : (⟨2, ![32, 72]⟩ : Shape).Idx → EReal := fun i =>
  if hr : (i 1).val % 8 < 3 then W1 (ix2 (padRow (i 1) hr) (i 0)) else zero

/-- The hidden layer at point n, unit h. -/
def hidden (x : IX → EReal) (W1 : IW1 → EReal) (b1 : IB1 → EReal) (n : Fin 2097152) (h : Fin 32) : EReal :=
  max ((∑ g : Fin 9, ∑ j : Fin 3, enc x n g j * W1 (ix2 (feat g j) h)) + b1 (ix1 h)) zero

/-- The network's output at point n. -/
def out (x : IX → EReal) (W1 : IW1 → EReal) (b1 : IB1 → EReal) (W2 : IW2 → EReal) (b2 : IB2 → EReal)
    (n : Fin 2097152) : EReal :=
  max ((∑ h : Fin 32, hidden x W1 b1 n h * W2 (ix2 h (0 : Fin 1))) + b2 (ix1 (0 : Fin 1))) zero

/-- The result array: the output of point n at index (n, 0). -/
def G (x : IX → EReal) (W1 : IW1 → EReal) (b1 : IB1 → EReal) (W2 : IW2 → EReal) (b2 : IB2 → EReal) :
    IO → EReal := fun i => out x W1 b1 W2 b2 (i 0)

end Cert.Spec

end
-- ==== Proof.PieceValue.lean ====
/-
  A trip's payload is the network at the points of its lanes.

  Let the input block hold the coordinates of the 65536 points base … base + 65535 (row j, lane p is
  coordinate j of point base + p). Trip k loads lanes 4096·k … and stores to the same lanes, so the payload's
  entry for local lane q is the network's term on the coordinates of point base + 4096·k + q, and it is stored
  at lane 4096·k + q of the output block: the payload agrees with "the network's output at point base + lane".
-/
import proofs.«177924_j11991548690836_2_alg».proof.Proof.Pieces
import proofs.«177924_j11991548690836_2_alg».proof.Proof.Spec

set_option maxRecDepth 16384

noncomputable section

namespace Cert.KernelIdeal.PieceValue

open Idealize.ShloMosaic Idealize.ShloMosaic.TcCoe Idealize.ShloMosaic.ValueIdx
open Idealize.SL Idealize.SL.Sem
open Cert.KernelIdeal Cert.KernelIdeal.Gen Cert.KernelIdeal.Pieces

/-- The output block of the points base … base + 65535: lane p holds the network's output at point base + p. -/
def blockOut (x : Cert.Spec.IX → EReal) (W1 : Cert.Spec.IW1 → EReal) (b1 : Cert.Spec.IB1 → EReal)
    (W2 : Cert.Spec.IW2 → EReal) (b2 : Cert.Spec.IB2 → EReal) (base : ℕ) (hb : base + 65536 ≤ 2097152) :
    Vec Ideal S1x65536 .f32 :=
  fun y => Cert.Spec.out x W1 b1 W2 b2 ⟨base + (y 1).val, by have h : (y 1).val < 65536 := (y 1).isLt; omega⟩

/-- Trip k's payload agrees with blockOut at the lanes it is stored to, given that the body's term at one lane
    is the network's output at the point whose coordinates the loaded chunk holds at that lane. -/
theorem piece_agrees (x : Cert.Spec.IX → EReal) (W1 : Cert.Spec.IW1 → EReal) (b1 : Cert.Spec.IB1 → EReal)
    (W2 : Cert.Spec.IW2 → EReal) (b2 : Cert.Spec.IB2 → EReal) (base : ℕ) (hb : base + 65536 ≤ 2097152)
    (x0 : Vec Ideal S3x65536 .f32) (x1 : Vec Ideal S32x72 .f32) (x2 : Vec Ideal S32x1 .f32)
    (x3 : Vec Ideal S1x32 .f32) (x4 : Vec Ideal S1x1 .f32)
    (hx0 : ∀ (j : Fin 3) (p : Fin 65536), x0 (ix2 j p) = x (ix2 ⟨base + p.val, by have h : p.val < 65536 := p.isLt; omega⟩ j))
    (hpay : ∀ (n : Fin 2097152) (q : Fin 4096) (v16 : Vec Ideal S3x4096 .f32),
      (∀ j : Fin 3, v16 (ix2 j q) = x (ix2 n j)) →
      k0_pay5 (F := Ideal) (k0_pay1 x1) (k0_pay2 x2) (k0_pay3 x3) (k0_pay4 x4) v16 (ix2 (0 : Fin 1) q)
        = Cert.Spec.out x W1 b1 W2 b2 n)
    (k : Fin k0_t1_loop.trips) (xl : S1x4096.Idx) :
    (piece x1 x2 x3 x4 x0 k).2 xl = blockOut x W1 b1 W2 b2 base hb ((piece x1 x2 x3 x4 x0 k).1.emb xl) := by
  have hk : k.val < 16 := Nat.lt_of_lt_of_le k.isLt k0_t1_abs.2.1
  obtain ⟨o10, o11⟩ := off1_eq k
  obtain ⟨o20, o21⟩ := off2_eq k
  -- the local index is (0, q)
  obtain ⟨q, rfl⟩ : ∃ q : Fin 4096, xl = ix2 (0 : Fin 1) q := ⟨xl 1, by
    funext a
    match a with
    | ⟨0, _⟩ => exact Fin.ext (by have h : (xl 0).val < 1 := (xl 0).isLt; show (xl 0).val = 0; omega)
    | ⟨1, _⟩ => rfl⟩
  have hq : q.val < 4096 := q.isLt
  have hn : base + (4096 * k.val + q.val) < 2097152 := by omega
  -- the entry is stored at lane 4096·k + q, so it is compared with point base + 4096·k + q
  have hpt : blockOut x W1 b1 W2 b2 base hb ((piece x1 x2 x3 x4 x0 k).1.emb (ix2 (0 : Fin 1) q))
      = Cert.Spec.out x W1 b1 W2 b2 ⟨base + (4096 * k.val + q.val), hn⟩ := by
    unfold blockOut
    exact congrArg (Cert.Spec.out x W1 b1 W2 b2) (Fin.ext (by
      show base + (k0_off2 k 1 + 1 * q.val) = base + (4096 * k.val + q.val)
      rw [o21]; omega))
  refine Eq.trans ?_ hpt.symm
  show k0_pay5 (F := Ideal) (k0_pay1 x1) (k0_pay2 x2) (k0_pay3 x3) (k0_pay4 x4)
      (View.ld x0 (Rect.unit (s := S3x65536) (k0_off1 k) S3x4096.size (k0_off1_inb k))) (ix2 (0 : Fin 1) q) = _
  refine hpay ⟨base + (4096 * k.val + q.val), hn⟩ q _ (fun j => ?_)
  show x0 ((Rect.unit (s := S3x65536) (k0_off1 k) S3x4096.size (k0_off1_inb k)).idx (ix2 j q)) = _
  have hidx : (Rect.unit (s := S3x65536) (k0_off1 k) S3x4096.size (k0_off1_inb k)).idx (ix2 j q)
      = ix2 j (⟨4096 * k.val + q.val, by omega⟩ : Fin 65536) := by
    funext a
    match a with
    | ⟨0, _⟩ => exact Fin.ext (by show k0_off1 k 0 + 1 * j.val = j.val; rw [o10]; omega)
    | ⟨1, _⟩ => exact Fin.ext (by show k0_off1 k 1 + 1 * q.val = 4096 * k.val + q.val; rw [o11]; omega)
  rw [hidx, hx0]

end Cert.KernelIdeal.PieceValue

end
-- ==== Proof.HostPrefixA.lean ====
/-
  What the kernel's wrapper hands the region besides the padded weights: the input transposed, so that
  coordinate j of point n sits at (j, n); the first bias as a 32x1 column; the second weight matrix transposed
  to a 1x32 row; the second bias as a 1x1 array.  Each is the launched argument read at the matching index.
-/
import proofs.«177924_j11991548690836_2_alg».proof.Proof.Gen.KernelIdeal.Frame
import proofs.«177924_j11991548690836_2_alg».proof.Proof.Spec
import Idealize.ShloMosaic.Lib.ValueLayout

noncomputable section

namespace Cert.KernelIdeal.HostPrefix

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The transposed input at (j, n) is the input at (n, j). -/
theorem v0_apply (j : Fin 3) (n : Fin 2097152) :
    (V m c main_v0 : S3x2097152.Idx → EReal) (ix2 j n)
      = (m ((c : Thread nD τ).loc main_arg0) : Cert.Spec.IX → EReal) (ix2 n j) := by
  have e : (V m c main_v0 : S3x2097152.Idx → EReal)
      = transpose S3x2097152 [1, 0] (m ((c : Thread nD τ).loc main_arg0) : S2097152x3.Idx → EReal)
          transposes_S2097152x3_S3x2097152_1_0 := by
    show StableHlo.after hostOps0 (fun b => m (c, b)) (Proc.devRef .tc main_v0) = _
    after_results_simp
  rw [e]
  exact transpose_ix2_apply _ _ j n

/-- The first bias as a column: entry (h, 0) is b1(h). -/
theorem v30_apply (h : Fin 32) :
    (V m c main_v30 : S32x1.Idx → EReal) (ix2 h 0)
      = (m ((c : Thread nD τ).loc main_arg2) : Cert.Spec.IB1 → EReal) (ix1 h) := by
  have e : (V m c main_v30 : S32x1.Idx → EReal)
      = shapeCast S32x1 (m ((c : Thread nD τ).loc main_arg2) : S32.Idx → EReal) shapeCasts_S32_S32x1 := by
    show StableHlo.after hostOps0 (fun b => m (c, b)) (Proc.devRef .tc main_v30) = _
    after_results_simp
    rfl
  rw [e]
  refine shapeCast_apply (s := S32) (t := S32x1) _ _ _ (ix1 h) ?_
  rw [Shape.rowMajor_val_one, Shape.rowMajor_val_two]
  show h.val = h.val * 1 + 0
  omega

/-- The second weight matrix as a row: entry (0, h) is W2(h, 0). -/
theorem v31_apply (h : Fin 32) :
    (V m c main_v31 : S1x32.Idx → EReal) (ix2 0 h)
      = (m ((c : Thread nD τ).loc main_arg3) : Cert.Spec.IW2 → EReal) (ix2 h 0) := by
  have e : (V m c main_v31 : S1x32.Idx → EReal)
      = transpose S1x32 [1, 0] (m ((c : Thread nD τ).loc main_arg3) : S32x1.Idx → EReal)
          transposes_S32x1_S1x32_1_0 := by
    show StableHlo.after hostOps0 (fun b => m (c, b)) (Proc.devRef .tc main_v31) = _
    after_results_simp
  rw [e]
  exact transpose_ix2_apply _ _ (0 : Fin 1) h

/-- The second bias as a 1x1 array: its entry is b2(0). -/
theorem v32_apply :
    (V m c main_v32 : S1x1.Idx → EReal) (ix2 0 0)
      = (m ((c : Thread nD τ).loc main_arg4) : Cert.Spec.IB2 → EReal) (ix1 0) := by
  have e : (V m c main_v32 : S1x1.Idx → EReal)
      = shapeCast S1x1 (m ((c : Thread nD τ).loc main_arg4) : S1.Idx → EReal) shapeCasts_S1_S1x1 := by
    show StableHlo.after hostOps0 (fun b => m (c, b)) (Proc.devRef .tc main_v32) = _
    after_results_simp
    rfl
  rw [e]
  refine shapeCast_apply (s := S1) (t := S1x1) _ _ _ (ix1 0) ?_
  rw [Shape.rowMajor_val_one, Shape.rowMajor_val_two]
  rfl

end Cert.KernelIdeal.HostPrefix

end
-- ==== Proof.ArrayValue.lean ====
/-
  From blocks to the array.

  Grid point t handles the points 65536·t … 65536·t + 65535: its input block is those columns of the transposed
  coordinates, its weight blocks are the whole (padded, transposed) weight arrays, and it writes back lanes
  65536·t … of the one-row output array. With the body's block equal to "the network at point base + lane"
  for base = 65536·t, every grid point writes back the restriction of ONE function of the array index —
  the network's output at the point the lane names — and the 32 blocks tile the array, so the array ends
  holding that function.
-/
import proofs.«177924_j11991548690836_2_alg».proof.Proof.Block
import proofs.«177924_j11991548690836_2_alg».proof.Proof.PieceValue
import proofs.«177924_j11991548690836_2_alg».proof.Proof.HostPrefixA

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pieces Cert.KernelIdeal.PieceValue Cert.KernelIdeal.HostPrefix

variable (m : (ℓ : Loc nD τ sig) → Buf (Elt Ideal) ℓ) (ρ : Dev nD → PrngReg)

/-- The five argument arrays on core c. -/
abbrev aX (c : Dev nD) : Cert.Spec.IX → EReal := m ((c : Thread nD τ).loc main_arg0)
abbrev aW1 (c : Dev nD) : Cert.Spec.IW1 → EReal := m ((c : Thread nD τ).loc main_arg1)
abbrev aB1 (c : Dev nD) : Cert.Spec.IB1 → EReal := m ((c : Thread nD τ).loc main_arg2)
abbrev aW2 (c : Dev nD) : Cert.Spec.IW2 → EReal := m ((c : Thread nD τ).loc main_arg3)
abbrev aB2 (c : Dev nD) : Cert.Spec.IB2 → EReal := m ((c : Thread nD τ).loc main_arg4)

/-- The one-row output array: lane n holds the network's output at point n. -/
def rowOut (c : Dev nD) : S1x2097152.Idx → EReal := fun i =>
  Cert.Spec.out (aX m c) (aW1 m c) (aB1 m c) (aW2 m c) (aB2 m c) (i 1)

/-- The index maps over the grid: the coordinate block and the output block move with the grid point along the
    lanes, the weight blocks stay at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The coordinate block of grid point t: row j, lane p is coordinate j of point 65536·t + p. -/
theorem blk0 (c : Dev nD) (t : Fin cfg0.N) (ht : t.val < 32) (j : Fin 3) (p : Fin 65536) :
    (iblk m c 0 t : S3x65536.Idx → EReal) (ix2 j p)
      = aX m c (ix2 (⟨65536 * t.val + p.val, by have hp : p.val < 65536 := p.isLt; omega⟩ : Fin 2097152) j) := by
  obtain ⟨e00, e01, -⟩ := idx_facts t
  have hp : p.val < 65536 := p.isLt
  have hj : j.val < 3 := j.isLt
  show (V m c main_v0 : S3x2097152.Idx → EReal) (((cfg0.win 0).blk t).view.emb (ix2 j p)) = _
  have he : ((cfg0.win 0).blk t).view.emb (ix2 j p)
      = ix2 j (⟨65536 * t.val + p.val, by omega⟩ : Fin 2097152) := by
    funext a; apply Fin.ext
    match a with
    | ⟨0, _⟩ => show win0_0.index t (0 : Fin 2) * 3 + 1 * j.val = j.val; omega
    | ⟨1, _⟩ => show win0_0.index t (1 : Fin 2) * 65536 + 1 * p.val = 65536 * t.val + p.val; omega
  rw [he]
  exact v0_apply m c j _

/-- The weight blocks are the whole arrays. -/
theorem blk1 (c : Dev nD) (t : Fin cfg0.N) (i : S32x72.Idx) :
    (iblk m c 1 t : S32x72.Idx → EReal) i = (V m c main_v29 : S32x72.Idx → EReal) i := by
  obtain ⟨-, -, e10, e11, -⟩ := idx_facts t
  have h0 : (i 0).val < 32 := (i 0).isLt
  have h1 : (i 1).val < 72 := (i 1).isLt
  show (V m c main_v29 : S32x72.Idx → EReal) (((cfg0.win 1).blk t).view.emb i) = _
  have he : ((cfg0.win 1).blk t).view.emb i = i := by
    funext a; apply Fin.ext
    match a with
    | ⟨0, _⟩ => show win0_1.index t (0 : Fin 2) * 32 + 1 * (i 0).val = (i 0).val; omega
    | ⟨1, _⟩ => show win0_1.index t (1 : Fin 2) * 72 + 1 * (i 1).val = (i 1).val; omega
  rw [he]

theorem blk2 (c : Dev nD) (t : Fin cfg0.N) (h : Fin 32) :
    (iblk m c 2 t : S32x1.Idx → EReal) (ix2 h (0 : Fin 1)) = aB1 m c (ix1 h) := by
  obtain ⟨-, -, -, -, e20, e21, -⟩ := idx_facts t
  have hh : h.val < 32 := h.isLt
  show (V m c main_v30 : S32x1.Idx → EReal) (((cfg0.win 2).blk t).view.emb (ix2 h (0 : Fin 1))) = _
  have he : ((cfg0.win 2).blk t).view.emb (ix2 h (0 : Fin 1)) = ix2 h (0 : Fin 1) := by
    funext a; apply Fin.ext
    match a with
    | ⟨0, _⟩ => show win0_2.index t (0 : Fin 2) * 32 + 1 * h.val = h.val; omega
    | ⟨1, _⟩ => show win0_2.index t (1 : Fin 2) * 1 + 1 * 0 = 0; omega
  rw [he]
  exact v30_apply m c h

theorem blk3 (c : Dev nD) (t : Fin cfg0.N) (h : Fin 32) :
    (iblk m c 3 t : S1x32.Idx → EReal) (ix2 (0 : Fin 1) h) = aW2 m c (ix2 h (0 : Fin 1)) := by
  obtain ⟨-, -, -, -, -, -, e30, e31, -⟩ := idx_facts t
  have hh : h.val < 32 := h.isLt
  show (V m c main_v31 : S1x32.Idx → EReal) (((cfg0.win 3).blk t).view.emb (ix2 (0 : Fin 1) h)) = _
  have he : ((cfg0.win 3).blk t).view.emb (ix2 (0 : Fin 1) h) = ix2 (0 : Fin 1) h := by
    funext a; apply Fin.ext
    match a with
    | ⟨0, _⟩ => show win0_3.index t (0 : Fin 2) * 1 + 1 * 0 = 0; omega
    | ⟨1, _⟩ => show win0_3.index t (1 : Fin 2) * 32 + 1 * h.val = h.val; omega
  rw [he]
  exact v31_apply m c h

theorem blk4 (c : Dev nD) (t : Fin cfg0.N) :
    (iblk m c 4 t : S1x1.Idx → EReal) (ix2 (0 : Fin 1) (0 : Fin 1)) = aB2 m c (ix1 (0 : Fin 1)) := by
  obtain ⟨-, -, -, -, -, -, -, -, e40, e41, -⟩ := idx_facts t
  show (V m c main_v32 : S1x1.Idx → EReal) (((cfg0.win 4).blk t).view.emb (ix2 (0 : Fin 1) (0 : Fin 1))) = _
  have he : ((cfg0.win 4).blk t).view.emb (ix2 (0 : Fin 1) (0 : Fin 1)) = ix2 (0 : Fin 1) (0 : Fin 1) := by
    funext a; apply Fin.ext
    match a with
    | ⟨0, _⟩ => show win0_4.index t (0 : Fin 2) * 1 + 1 * 0 = 0; omega
    | ⟨1, _⟩ => show win0_4.index t (1 : Fin 2) * 1 + 1 * 0 = 0; omega
  rw [he]
  exact v32_apply m c

section
-- Two facts this section rests on: the weight array the region finds is W1 transposed and zero-padded, and the
-- body's term at one lane is the network's output at the point whose coordinates that lane of the chunk holds.
variable (hv29 : ∀ c : Dev nD, (V m c main_v29 : S32x72.Idx → EReal) = Cert.Spec.padded (aW1 m c))
variable (hpay5 : ∀ (x : Cert.Spec.IX → EReal) (W1 : Cert.Spec.IW1 → EReal) (b1 : Cert.Spec.IB1 → EReal)
    (W2 : Cert.Spec.IW2 → EReal) (b2 : Cert.Spec.IB2 → EReal) (n : Fin 2097152) (q : Fin 4096)
    (v0 : Vec Ideal S32x72 .f32) (v3 : Vec Ideal S32x1 .f32) (v5 : Vec Ideal S1x32 .f32) (v8 : Vec Ideal S1x1 .f32)
    (v16 : Vec Ideal S3x4096 .f32),
    (∀ i : S32x72.Idx, v0 i = Cert.Spec.padded W1 i) → (∀ h : Fin 32, v3 (ix2 h (0 : Fin 1)) = b1 (ix1 h)) →
    (∀ h : Fin 32, v5 (ix2 (0 : Fin 1) h) = W2 (ix2 h (0 : Fin 1))) → (v8 (ix2 (0 : Fin 1) (0 : Fin 1)) = b2 (ix1 (0 : Fin 1))) →
    (∀ j : Fin 3, v16 (ix2 j q) = x (ix2 n j)) →
    k0_pay5 (F := Ideal) (k0_pay1 v0) (k0_pay2 v3) (k0_pay3 v5) (k0_pay4 v8) v16 (ix2 (0 : Fin 1) q)
      = Cert.Spec.out x W1 b1 W2 b2 n)

include hv29 hpay5

/-- WHAT GRID POINT t WRITES BACK is block t of rowOut. -/
theorem flushed5_eq (c : Dev nD) (t : Fin cfg0.N) :
    (dats m 0 c).flushed 5 t = ((cfg0.win 5).blk t).view.read (Elt Ideal) (rowOut m c) := by
  have ht : t.val < 32 := t.isLt
  have hb : 65536 * t.val + 65536 ≤ 2097152 := by omega
  obtain ⟨-, -, -, -, -, -, -, -, -, -, e50, e51⟩ := idx_facts t
  show (cfg0.win 5).cut (grid0.coords t) ((dats m 0 c).after 5 t) = _
  rw [after0_5]
  funext j
  have hj : (j 1).val < 65536 := (j 1).isLt
  show outsAt0 m c t j = rowOut m c (((cfg0.win 5).blk t).view.emb j)
  unfold outsAt0
  refine (Cert.KernelIdeal.Block.out0_apply_of c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)
    (blockOut (aX m c) (aW1 m c) (aB1 m c) (aW2 m c) (aB2 m c) (65536 * t.val) hb)
    (fun k xl => piece_agrees (aX m c) (aW1 m c) (aB1 m c) (aW2 m c) (aB2 m c) (65536 * t.val) hb
      (iblk m c 0 t) (iblk m c 1 t) (iblk m c 2 t) (iblk m c 3 t) (iblk m c 4 t)
      (fun j p => blk0 m c t ht j p)
      (fun n q v16 h16 => hpay5 (aX m c) (aW1 m c) (aB1 m c) (aW2 m c) (aB2 m c) n q
        (iblk m c 1 t) (iblk m c 2 t) (iblk m c 3 t) (iblk m c 4 t) v16
        (fun i => (blk1 m c t i).trans (congrFun (hv29 c) i)) (blk2 m c t) (blk3 m c t) (blk4 m c t) h16)
      k xl) j).trans ?_
  unfold blockOut rowOut
  exact congrArg (Cert.Spec.out (aX m c) (aW1 m c) (aB1 m c) (aW2 m c) (aB2 m c)) (Fin.ext (by
    show 65536 * t.val + (j 1).val = win0_5.index t (1 : Fin 2) * 65536 + 1 * (j 1).val
    omega))

omit hv29 hpay5 in
/-- An index of the output array is in grid point t's block iff each coordinate is in the block's range. -/
theorem mem_blk5 (t : Fin cfg0.N) (i : S1x2097152.Idx) :
    i ∈ ((cfg0.win 5).blk t).view.set ↔ ∀ a : Fin 2, win0_5.index t a * S1x65536.size a ≤ (i a).val
      ∧ (i a).val < win0_5.index t a * S1x65536.size a + S1x65536.size a := by
  show i ∈ ((View.whole main_v33).slice (win0_5.rect t)).set ↔ _
  rw [View.set_slice_whole, Rect.mem_set_unit]
  exact Iff.rfl

omit hv29 hpay5 in
/-- The 32 blocks tile the array: lane n is in the block of grid point n / 65536. -/
theorem cover5 (i : S1x2097152.Idx) :
    ∃ t : Fin cfg0.N, (cfg0.win 5).flush t = true ∧ i ∈ ((cfg0.win 5).blk t).view.set := by
  have h0 : (i 0).val < 1 := (i 0).isLt
  have h1 : (i 1).val < 2097152 := (i 1).isLt
  let t : Fin cfg0.N := ⟨(i 1).val / 65536, by show (i 1).val / 65536 < 32; omega⟩
  obtain ⟨-, -, -, -, -, -, -, -, -, -, e50, e51⟩ := idx_facts t
  have e51' : win0_5.index t (1 : Fin 2) = (i 1).val / 65536 := e51
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 65536 ≤ (i 1).val ∧ (i 1).val < win0_5.index t (1 : Fin 2) * 65536 + 65536; omega

/-- THE OUTPUT ARRAY after the run is rowOut. -/
theorem final5 (c : Dev nD) : (dats m 0 c).arrAt 5 cfg0.N = rowOut m c :=
  (dats m 0 c).arrAt_eq_of_cover 5 (rowOut m c) (fun t _ => flushed5_eq m hv29 hpay5 c t) cover5

end

end Cert.KernelIdeal.ArrayValue

end
-- ==== Proof.KernelRun.lean ====
/-
  The kernel's run, read.

  After the region the one-row output array holds the network's output at point n in lane n. The wrapper's last
  host operation reshapes that [1, N] row to the [N, 1] result: entry (n, 0) of the result has the same row-major
  position n as entry (0, n) of the row, so the result is the network's output at point n at index (n, 0) —
  the specification G of the five argument arrays, which the run leaves unchanged.
-/
import proofs.«177924_j11991548690836_2_alg».proof.Proof.ArrayValue
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.KernelIdeal.ArrayValue

variable (m : (ℓ : Loc nD τ sig) → Buf (Elt Ideal) ℓ) (ρ : Dev nD → PrngReg)

-- Two facts this section rests on: the weight array the region finds is W1 transposed and zero-padded, and the
-- body's term at one lane is the network's output at the point whose coordinates that lane of the chunk holds.
variable (hv29 : ∀ c : Dev nD, (V m c main_v29 : S32x72.Idx → EReal) = Cert.Spec.padded (aW1 m c))
variable (hpay5 : ∀ (x : Cert.Spec.IX → EReal) (W1 : Cert.Spec.IW1 → EReal) (b1 : Cert.Spec.IB1 → EReal)
    (W2 : Cert.Spec.IW2 → EReal) (b2 : Cert.Spec.IB2 → EReal) (n : Fin 2097152) (q : Fin 4096)
    (v0 : Vec Ideal S32x72 .f32) (v3 : Vec Ideal S32x1 .f32) (v5 : Vec Ideal S1x32 .f32) (v8 : Vec Ideal S1x1 .f32)
    (v16 : Vec Ideal S3x4096 .f32),
    (∀ i : S32x72.Idx, v0 i = Cert.Spec.padded W1 i) → (∀ h : Fin 32, v3 (ix2 h (0 : Fin 1)) = b1 (ix1 h)) →
    (∀ h : Fin 32, v5 (ix2 (0 : Fin 1) h) = W2 (ix2 h (0 : Fin 1))) → (v8 (ix2 (0 : Fin 1) (0 : Fin 1)) = b2 (ix1 (0 : Fin 1))) →
    (∀ j : Fin 3, v16 (ix2 j q) = x (ix2 n j)) →
    k0_pay5 (F := Ideal) (k0_pay1 v0) (k0_pay2 v3) (k0_pay3 v5) (k0_pay4 v8) v16 (ix2 (0 : Fin 1) q)
      = Cert.Spec.out x W1 b1 W2 b2 n)

include hv29 hpay5

/-- The result buffer after the host tail: the reshape of the output row, which is G of the arguments. -/
theorem tail34 (c : Dev nD) :
    (Pipeline.afterTail₀ cfgs (dats m) 0 (V0 m) [hostOps1] c main_v34 : S2097152x1.Idx → EReal)
      = Cert.Spec.G (aX m c) (aW1 m c) (aB1 m c) (aW2 m c) (aB2 m c) := by
  unfold Pipeline.afterTail₀
  show StableHlo.after hostOps1 _ (Proc.devRef .tc main_v34) = _
  after_results
  funext i
  have h0 : (i 0).val < 2097152 := (i 0).isLt
  have h1 : (i 1).val < 1 := (i 1).isLt
  show shapeCast S2097152x1
      (Pipeline.withArrays spec0 c (V0 m c) (fun w => (dats m 0 c).arrAt w cfg0.N) (Proc.devRef .tc main_v33) : S1x2097152.Idx → EReal)
      shapeCasts_S1x2097152_S2097152x1 i = _
  have hA : (Pipeline.withArrays spec0 c (V0 m c) (fun w => (dats m 0 c).arrAt w cfg0.N) (Proc.devRef .tc main_v33) : S1x2097152.Idx → EReal)
      = rowOut m c :=
    (Pipeline.withArrays_arr spec0 launch0.win.arr_inj c _ _ 5).trans (final5 m hv29 hpay5 c)
  rw [hA]
  refine (shapeCast_apply (rowOut m c) shapeCasts_S1x2097152_S2097152x1 i (ix2 (0 : Fin 1) (i 0)) ?_).trans rfl
  rw [Shape.rowMajor_val_two, Shape.rowMajor_val_two]
  show 0 * 2097152 + (i 0).val = (i 0).val * 1 + (i 1).val
  omega

/-- THE KERNEL'S RUN: every weakly fair execution ends with the result at G of the arguments, the arguments unchanged. -/
theorem run : θ_run defs (onTc (τ := τ) (main (F := Ideal))) ⟨m, fun _ => 0, ρ⟩ (fun r => ∀ c : Dev nD,
      r.2.mem ((c.tc : Thread nD τ).loc main_v34) = Cert.Spec.G (aX m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v34 (Pipeline.mem_restRefs_of main_v34 (by decide) (by decide))).trans (tail34 m hv29 hpay5 c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.LibScatterSet.lean ====
/-
  An array updated by a scatter whose body returns the update (the array written at the landing places, kept
  elsewhere), read at one index.  The scatter is a left fold over the update indices in row-major order of a
  step that overwrites the element an update lands on.  If no update lands on an index the array is unchanged
  there; if some update lands on it, and all the updates landing on it carry one value, it holds that value.
-/
import Idealize.ShloMosaic.PureOps.ShapeOps
import Idealize.ShloMosaic.PureOps.Dims
import Idealize.ShloMosaic.Lib.ValueIdx

noncomputable section

namespace Idealize.ShloMosaic.ScatterSet

open Idealize.ShloMosaic Idealize.ShloMosaic.ValueIdx

section Fold
variable {ι β α : Type} [DecidableEq β]

/-- One step of a writing fold: update `n` overwrites the element at the place it lands on, if it lands. -/
def step (res : ι → Option β) (val : ι → α) (r : β → α) (n : ι) : β → α :=
  match res n with
  | some i => fun i' => if i' = i then val n else r i'
  | none => r

theorem step_apply (res : ι → Option β) (val : ι → α) (r : β → α) (n : ι) (i' : β) :
    step res val r n i' = if res n = some i' then val n else r i' := by
  unfold step
  cases h : res n with
  | none => simp
  | some i =>
    by_cases hi : i' = i
    · subst hi; simp
    · have : ¬ (some i = some i') := fun e => hi (Option.some.inj e).symm
      simp [hi, this]

/-- No update of the list lands on `i'`: the fold leaves the element there as it was. -/
theorem foldl_miss (res : ι → Option β) (val : ι → α) (l : List ι) (r : β → α) (i' : β)
    (h : ∀ n ∈ l, res n ≠ some i') : l.foldl (step res val) r i' = r i' := by
  induction l generalizing r with
  | nil => rfl
  | cons a l ih =>
    rw [List.foldl_cons, ih _ (fun n hn => h n (List.mem_cons_of_mem _ hn)), step_apply,
      if_neg (h a List.mem_cons_self)]

/-- Every update of the list that lands on `i'` carries the value `v`, and either the element there is
    `v` already or some update of the list lands on it: after the fold it is `v`. -/
theorem foldl_hit_aux (res : ι → Option β) (val : ι → α) (l : List ι) (r : β → α) (i' : β) (v : α)
    (hall : ∀ n ∈ l, res n = some i' → val n = v) (hex : r i' = v ∨ ∃ n ∈ l, res n = some i') :
    l.foldl (step res val) r i' = v := by
  induction l generalizing r with
  | nil =>
    rcases hex with h | ⟨n, hn, _⟩
    · exact h
    · cases hn
  | cons a l ih =>
    rw [List.foldl_cons]
    refine ih _ (fun n hn => hall n (List.mem_cons_of_mem _ hn)) ?_
    rw [step_apply]
    by_cases ha : res a = some i'
    · left; rw [if_pos ha]; exact hall a List.mem_cons_self ha
    · rw [if_neg ha]
      rcases hex with h | ⟨n, hn, hres⟩
      · left; exact h
      · rcases List.mem_cons.1 hn with rfl | hn'
        · exact absurd hres ha
        · right; exact ⟨n, hn', hres⟩

end Fold

section Scatter
variable {s si u : Shape} {α : Type} {w : Nat}

/-- A scatter whose body returns the update is the writing fold over the update indices in row-major order. -/
theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  beta_reduce
  generalize d.resultIdx? (u.rowMajor.symm n) idx = o
  cases o <;> rfl

/-- No update lands on `i'`: the scatter leaves the operand's element there. -/
theorem scatter_set_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  rw [scatter_eq_foldl]
  exact foldl_miss _ _ _ _ _ (fun n _ => h _)

/-- Update `j0` lands on `i'` and no other update does: the scatter puts the update's element `j0` there. -/
theorem scatter_set_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  rw [scatter_eq_foldl]
  refine foldl_hit_aux _ _ _ _ _ _ (fun n _ hn => by rw [huniq _ hn]) (Or.inr ⟨u.rowMajor j0, List.mem_finRange _, ?_⟩)
  rw [Equiv.symm_apply_apply]
  exact h0

end Scatter

end Idealize.ShloMosaic.ScatterSet

end
-- ==== Proof.HostPrefix.lean ====
/-
  The padded weights the kernel's wrapper builds.  Nine scatters write the row triples of W1 (rows 3g, 3g+1,
  3g+2) at rows 8g, 8g+1, 8g+2 of a 72x32 array of f32 zeros, g = 0..8; a scatter of three whole rows at start
  row s replaces exactly the rows s, s+1, s+2.  So row r of the result holds W1's row 3(r/8) + r%8 when
  r%8 < 3 and the zero otherwise, and its transpose is W1 transposed and padded to 72 columns.
-/
import proofs.«177924_j11991548690836_2_alg».proof.Proof.Gen.KernelIdeal.Frame
import proofs.«177924_j11991548690836_2_alg».proof.Proof.Spec
import proofs.«177924_j11991548690836_2_alg».proof.Proof.LibScatterSet
import proofs.«177924_j11991548690836_2_alg».proof.Proof.HostPrefixA
import Idealize.ShloMosaic.Lib.ValueLayout

noncomputable section

namespace Cert.KernelIdeal.HostPrefix

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The scatter's dimension numbers: one start index, on the operand's rows; the update is a block of whole rows. -/
abbrev dS : ScatterDims S72x32 S1 S3x32 := scatter_S72x32_S1_S3x32_01_n_0_0

theorem start0 (j : S3x32.Idx) (idx : IVec S1 32) : dS.start j idx 0 = (idx (ix1 0)).toInt := by
  unfold ScatterDims.start
  rw [dif_pos (by decide)]
  refine congrArg (fun k => (idx k).toInt) ?_
  funext b
  match b with
  | ⟨0, _⟩ => exact Subsingleton.elim (α := Fin 1) _ _

theorem start1 (j : S3x32.Idx) (idx : IVec S1 32) : dS.start j idx 1 = 0 := by
  unfold ScatterDims.start
  rw [dif_neg (by decide)]

theorem window0 (j : S3x32.Idx) : dS.window j 0 = (j 0).val := by
  unfold ScatterDims.window
  rw [dif_pos (by decide)]
  rfl

theorem window1 (j : S3x32.Idx) : dS.window j 1 = (j 1).val := by
  unfold ScatterDims.window
  rw [dif_pos (by decide)]
  rfl

/-- With the start row `st`, update element (a, b) lands on element (st + a, b) of the operand. -/
theorem resultIdx_eq (st : Nat) (hst : st + 3 ≤ 72) (idx : IVec S1 32) (hI : (idx (ix1 0)).toInt = (st : Int))
    (a : Fin 3) (b : Fin 32) :
    dS.resultIdx? (ix2 a b) idx = some (ix2 (⟨st + a.val, by omega⟩ : Fin 72) b) := by
  have e0 : dS.start (ix2 a b) idx 0 + (dS.window (ix2 a b) 0 : Int) = ((st + a.val : Nat) : Int) := by
    rw [start0, window0, hI]; push_cast; rfl
  have e1 : dS.start (ix2 a b) idx 1 + (dS.window (ix2 a b) 1 : Int) = ((b.val : Nat) : Int) := by
    rw [start1, window1]; simp
  have H : ∀ ax, 0 ≤ dS.start (ix2 a b) idx ax + (dS.window (ix2 a b) ax : Int)
      ∧ dS.start (ix2 a b) idx ax + (dS.window (ix2 a b) ax : Int) < S72x32.size ax := by
    intro ax
    match ax with
    | ⟨0, _⟩ =>
      have : dS.start (ix2 a b) idx (⟨0, by decide⟩ : Fin 2) + (dS.window (ix2 a b) (⟨0, by decide⟩ : Fin 2) : Int)
          = ((st + a.val : Nat) : Int) := e0
      rw [this]
      show (0 : Int) ≤ ((st + a.val : Nat) : Int) ∧ ((st + a.val : Nat) : Int) < ((72 : Nat) : Int)
      omega
    | ⟨1, _⟩ =>
      have : dS.start (ix2 a b) idx (⟨1, by decide⟩ : Fin 2) + (dS.window (ix2 a b) (⟨1, by decide⟩ : Fin 2) : Int)
          = ((b.val : Nat) : Int) := e1
      rw [this]
      show (0 : Int) ≤ ((b.val : Nat) : Int) ∧ ((b.val : Nat) : Int) < ((32 : Nat) : Int)
      omega
  unfold ScatterDims.resultIdx?
  rw [dif_pos H]
  refine congrArg some (funext fun ax => Fin.ext ?_)
  match ax with
  | ⟨0, _⟩ =>
    show (dS.start (ix2 a b) idx 0 + (dS.window (ix2 a b) 0 : Int)).toNat = st + a.val
    rw [e0]; rfl
  | ⟨1, _⟩ =>
    show (dS.start (ix2 a b) idx 1 + (dS.window (ix2 a b) 1 : Int)).toNat = b.val
    rw [e1]; rfl

/-- A scatter of three rows at start row `st`: rows st, st+1, st+2 take the update's rows, the others stay. -/
theorem scatter_rows (st : Nat) (hst : st + 3 ≤ 72) (x : S72x32.Idx → EReal) (idx : IVec S1 32)
    (upd : S3x32.Idx → EReal) (hI : (idx (ix1 0)).toInt = (st : Int)) (r : Fin 72) (b : Fin 32) :
    Host.scatter dS (fun _ v => v) x idx upd (ix2 r b)
      = if h : st ≤ r.val ∧ r.val < st + 3 then upd (ix2 (⟨r.val - st, by omega⟩ : Fin 3) b) else x (ix2 r b) := by
  by_cases h : st ≤ r.val ∧ r.val < st + 3
  · rw [dif_pos h]
    refine ScatterSet.scatter_set_hit dS x idx upd _ (ix2 (⟨r.val - st, by omega⟩ : Fin 3) b) ?_ ?_
    · rw [resultIdx_eq st hst idx hI]
      exact congrArg (fun q : Fin 72 => some (ix2 q b)) (Fin.ext (by show st + (r.val - st) = r.val; omega))
    · intro j hj
      obtain ⟨a, b', rfl⟩ : ∃ (a : Fin 3) (b' : Fin 32), j = ix2 a b' := ⟨j 0, j 1, eq_ix2 j⟩
      rw [resultIdx_eq st hst idx hI] at hj
      have hj' := Option.some.inj hj
      have e0 : st + a.val = r.val := congrArg Fin.val (congrFun hj' 0)
      have e1 : b' = b := congrFun hj' 1
      rw [e1]
      exact congrArg (fun q : Fin 3 => ix2 q b) (Fin.ext (by show a.val = r.val - st; omega))
  · rw [dif_neg h]
    refine ScatterSet.scatter_set_miss dS x idx upd _ ?_
    intro j hj
    obtain ⟨a, b', rfl⟩ : ∃ (a : Fin 3) (b' : Fin 32), j = ix2 a b' := ⟨j 0, j 1, eq_ix2 j⟩
    rw [resultIdx_eq st hst idx hI] at hj
    have hj' := Option.some.inj hj
    have e0 : st + a.val = r.val := congrArg Fin.val (congrFun hj' 0)
    have := a.isLt
    omega

/-- Three rows of W1 from row `o` on, read at (a, b): W1 at (o + a, b). -/
theorem slice_apply (o : Nat) (W1 : S27x32.Idx → EReal) (h : S27x32.Slices ![o, 0] S3x32) (a : Fin 3) (b : Fin 32) :
    extractStridedSlice S3x32 ![o, 0] W1 h (ix2 a b)
      = W1 (ix2 (⟨o + a.val, Nat.lt_of_lt_of_le (Nat.add_lt_add_left a.isLt o) (h.2 0)⟩ : Fin 27) b) := by
  refine extractStridedSlice_apply _ W1 h _ _ (fun ax => ?_)
  match ax with
  | ⟨0, _⟩ => rfl
  | ⟨1, _⟩ => show b.val = 0 + b.val; omega

/-- The 72x32 array of f32 zeros the scatters start from. -/
abbrev zeros : S72x32.Idx → EReal :=
  broadcastInDim S72x32 ![] bcast_S_S72x32 (constant (F := Ideal) S_ .f32 0x00000000#32)

/-- The one-element index array holding the start row `k`. -/
abbrev startIdx (k : BitVec 32) : IVec S1 32 := broadcastInDim S1 ![] bcast_S_S1 (constantI S_ 32 k)

theorem startIdx_toInt (st : Nat) (hst : st + 3 ≤ 72) :
    ((startIdx (BitVec.ofNat 32 st)) (ix1 0)).toInt = (st : Int) := by
  show (BitVec.ofNat 32 st).toInt = st
  have h : (BitVec.ofNat 32 st).toNat = st := by
    rw [BitVec.toNat_ofNat]; exact Nat.mod_eq_of_lt (by omega)
  rw [BitVec.toInt_eq_toNat_of_lt (by rw [h]; omega), h]

theorem zeros_apply (i : S72x32.Idx) : zeros i = Cert.Spec.zero := rfl

/-- `scatter_rows` at a literal start row. -/
theorem scatter_rows_lit (st : Nat) (hst : st + 3 ≤ 72) (x : S72x32.Idx → EReal) (upd : S3x32.Idx → EReal)
    (r : Fin 72) (b : Fin 32) :
    Host.scatter dS (fun _ v => v) x (startIdx (BitVec.ofNat 32 st)) upd (ix2 r b)
      = if h : st ≤ r.val ∧ r.val < st + 3 then upd (ix2 (⟨r.val - st, by omega⟩ : Fin 3) b) else x (ix2 r b) :=
  scatter_rows st hst x _ upd (startIdx_toInt st hst) r b

/-- The nine scatters: triple g of W1's rows written at rows 8g, 8g+1, 8g+2 of the zeros, g = 0..8. -/
def padW (W1 : S27x32.Idx → EReal) : S72x32.Idx → EReal :=
  Host.scatter dS (fun _ v => v)
    (Host.scatter dS (fun _ v => v)
    (Host.scatter dS (fun _ v => v)
    (Host.scatter dS (fun _ v => v)
    (Host.scatter dS (fun _ v => v)
    (Host.scatter dS (fun _ v => v)
    (Host.scatter dS (fun _ v => v)
    (Host.scatter dS (fun _ v => v)
    (Host.scatter dS (fun _ v => v)
    (zeros)
    (startIdx 0#32) (extractStridedSlice S3x32 ![0, 0] W1 slices_S27x32_S3x32_0_0))
    (startIdx 8#32) (extractStridedSlice S3x32 ![3, 0] W1 slices_S27x32_S3x32_3_0))
    (startIdx 16#32) (extractStridedSlice S3x32 ![6, 0] W1 slices_S27x32_S3x32_6_0))
    (startIdx 24#32) (extractStridedSlice S3x32 ![9, 0] W1 slices_S27x32_S3x32_9_0))
    (startIdx 32#32) (extractStridedSlice S3x32 ![12, 0] W1 slices_S27x32_S3x32_12_0))
    (startIdx 40#32) (extractStridedSlice S3x32 ![15, 0] W1 slices_S27x32_S3x32_15_0))
    (startIdx 48#32) (extractStridedSlice S3x32 ![18, 0] W1 slices_S27x32_S3x32_18_0))
    (startIdx 56#32) (extractStridedSlice S3x32 ![21, 0] W1 slices_S27x32_S3x32_21_0))
    (startIdx 64#32) (extractStridedSlice S3x32 ![24, 0] W1 slices_S27x32_S3x32_24_0)

/-- Row r of the scattered array: W1's row 3(r/8) + r%8 at a feature position, the f32 zero elsewhere. -/
theorem padW_apply (W1 : S27x32.Idx → EReal) (r : Fin 72) (b : Fin 32) :
    padW W1 (ix2 r b) = if hr : r.val % 8 < 3 then W1 (ix2 (Cert.Spec.padRow r hr) b) else Cert.Spec.zero := by
  unfold padW
  rw [scatter_rows_lit 64 (by omega), scatter_rows_lit 56 (by omega), scatter_rows_lit 48 (by omega),
    scatter_rows_lit 40 (by omega), scatter_rows_lit 32 (by omega), scatter_rows_lit 24 (by omega),
    scatter_rows_lit 16 (by omega), scatter_rows_lit 8 (by omega), scatter_rows_lit 0 (by omega), zeros_apply]
  simp only [slice_apply]
  have hr72 := r.isLt
  split_ifs <;>
    first
      | rfl
      | (exfalso; omega)
      | exact congrArg (fun q : Fin 27 => W1 (ix2 q b)) (Fin.ext (by simp only [Cert.Spec.padRow]; omega))

/-- The padded transposed weights at (h, r): the scattered array at (r, h). -/
theorem v29_apply (h : Fin 32) (r : Fin 72) :
    (V m c main_v29 : S32x72.Idx → EReal) (ix2 h r)
      = Cert.Spec.padded (m ((c : Thread nD τ).loc main_arg1) : Cert.Spec.IW1 → EReal) (ix2 h r) := by
  have e : (V m c main_v29 : S32x72.Idx → EReal)
      = transpose S32x72 [1, 0] (padW (m ((c : Thread nD τ).loc main_arg1) : S27x32.Idx → EReal))
          transposes_S72x32_S32x72_1_0 := by
    show StableHlo.after hostOps0 (fun b => m (c, b)) (Proc.devRef .tc main_v29) = _
    after_results_simp
    rfl
  rw [e]
  refine (transpose_ix2_apply _ _ h r).trans ?_
  rw [padW_apply]
  rfl

/-- The second window's array is W1 transposed and padded to 72 columns. -/
theorem v29_eq : (V m c main_v29 : S32x72.Idx → EReal)
    = Cert.Spec.padded (m ((c : Thread nD τ).loc main_arg1) : Cert.Spec.IW1 → EReal) := by
  funext i
  obtain ⟨h, r, rfl⟩ : ∃ (h : Fin 32) (r : Fin 72), i = ix2 h r := ⟨i 0, i 1, eq_ix2 i⟩
  exact v29_apply m c h r

end Cert.KernelIdeal.HostPrefix

end
-- ==== Proof.Regroup.lean ====
/-
  A sum over the 72 rows of the padded layout, regrouped.  Row r belongs to triple r / 8 at position r % 8.
  When the summand vanishes at every padding position (r % 8 ≥ 3), the sum over the 72 rows is the double sum
  over the nine triples g and their three feature positions j of the summand at row 8g + j.
-/
import Mathlib.Algebra.BigOperators.Fin
import Mathlib.Logic.Equiv.Fin.Basic

noncomputable section

open scoped BigOperators

namespace Cert.KernelIdeal.Payload

/-- Row 8g + j of the padded layout. -/
def row (g : Fin 9) (j : Fin 3) : Fin 72 := ⟨8 * g.val + j.val, by omega⟩

theorem row_val (g : Fin 9) (j : Fin 3) : (row g j).val = 8 * g.val + j.val := rfl

/-- A sum over 72 rows whose summand is zero at the padding positions is the double sum over triples and
    feature positions. -/
theorem sum72_regroup {M : Type*} [AddCommMonoid M] (f : Fin 72 → M)
    (hz : ∀ r : Fin 72, 3 ≤ r.val % 8 → f r = 0) :
    ∑ r : Fin 72, f r = ∑ g : Fin 9, ∑ j : Fin 3, f (row g j) := by
  have e : ∑ r : Fin 72, f r = ∑ p : Fin 9 × Fin 8, f (finProdFinEquiv p) :=
    (Equiv.sum_comp (finProdFinEquiv (m := 9) (n := 8)) f).symm
  rw [e, Fintype.sum_prod_type]
  refine Finset.sum_congr rfl fun g _ => ?_
  rw [Fin.sum_univ_eight, Fin.sum_univ_three]
  have h3 : f (finProdFinEquiv (g, (3 : Fin 8))) = 0 := hz _ (by simp [finProdFinEquiv] <;> omega)
  have h4 : f (finProdFinEquiv (g, (4 : Fin 8))) = 0 := hz _ (by simp [finProdFinEquiv] <;> omega)
  have h5 : f (finProdFinEquiv (g, (5 : Fin 8))) = 0 := hz _ (by simp [finProdFinEquiv] <;> omega)
  have h6 : f (finProdFinEquiv (g, (6 : Fin 8))) = 0 := hz _ (by simp [finProdFinEquiv] <;> omega)
  have h7 : f (finProdFinEquiv (g, (7 : Fin 8))) = 0 := hz _ (by simp [finProdFinEquiv] <;> omega)
  rw [h3, h4, h5, h6, h7]
  have e0 : (finProdFinEquiv (g, (0 : Fin 8)) : Fin 72) = row g 0 := Fin.ext (by simp [finProdFinEquiv, row])
  have e1 : (finProdFinEquiv (g, (1 : Fin 8)) : Fin 72) = row g 1 := Fin.ext (by simp [finProdFinEquiv, row]; omega)
  have e2 : (finProdFinEquiv (g, (2 : Fin 8)) : Fin 72) = row g 2 := Fin.ext (by simp [finProdFinEquiv, row]; omega)
  rw [e0, e1, e2]
  simp only [add_zero]

end Cert.KernelIdeal.Payload

end
-- ==== Proof.PayloadPieces.lean ====
/-
  The non-pointwise operations of the kernel body, each read at one index with explicit coordinates:
  a column broadcast [32,1]→[32,4096] and [1,1]→[1,4096], the two matrix products into a zero accumulator as
  sums over the contracted coordinate, and the two concatenations along the rows (a 3-row piece over a 5-row
  piece; nine 8-row pieces) as the piece that holds the row.
-/
import proofs.«177924_j11991548690836_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Broadcasts of a column -/

/-- A 32-entry column laid along 4096 lanes reads the column's entry of the row. -/
theorem bcast_col32 (v : S32x1.Idx → EReal) (h : S32x1.Broadcasts S32x4096) (p : Fin 32) (q : Fin 4096) :
    broadcastTo S32x4096 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A single entry laid along 4096 lanes reads that entry. -/
theorem bcast_col1 (v : S1x1.Idx → EReal) (h : S1x1.Broadcasts S1x4096) (p : Fin 1) (q : Fin 4096) :
    broadcastTo S1x4096 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-! ## The two matrix products -/

/-- The first product, 32×72 by 72×4096 into a zero accumulator, at (h, q): the sum over the 72 rows. -/
theorem matmul1_apply (A : FVec Ideal S32x72 .bf16) (B : FVec Ideal S72x4096 .bf16) (h : Fin 32) (q : Fin 4096) :
    matmul dot_S32x72_S72x4096_S32x4096_1_0_0_1_n_n none A B (constant (F := Ideal) S32x4096 .f32 0x00000000#32) (ix2 h q)
      = ∑ r : Fin 72, A (ix2 h r) * B (ix2 r q) := by
  show FloatOps.matmul dot_S32x72_S72x4096_S32x4096_1_0_0_1_n_n none A B _ (ix2 h q) = _
  rw [Ideal.matmul_constant_zero_apply,
    ← Equiv.sum_comp (contrEquiv1 dot_S32x72_S72x4096_S32x4096_1_0_0_1_n_n 72 rfl rfl).symm]
  refine Finset.sum_congr rfl fun c _ => ?_
  have c2 := contrEquiv1_symm_val dot_S32x72_S72x4096_S32x4096_1_0_0_1_n_n 72 rfl rfl c
  have l2 : dot_S32x72_S72x4096_S32x4096_1_0_0_1_n_n.lhsIdx (ix2 h q)
      ((contrEquiv1 dot_S32x72_S72x4096_S32x4096_1_0_0_1_n_n 72 rfl rfl).symm c) = ix2 h c := by
    funext ax; apply Fin.ext
    match ax with
    | ⟨0, _⟩ => simp [DotDims.lhsIdx, dot_S32x72_S72x4096_S32x4096_1_0_0_1_n_n] <;> rfl
    | ⟨1, _⟩ =>
      exact (DotDims.lhsIdx_val_of_single dot_S32x72_S72x4096_S32x4096_1_0_0_1_n_n (cl := 1) rfl (ix2 h q) _).trans c2
  have r2 : dot_S32x72_S72x4096_S32x4096_1_0_0_1_n_n.rhsIdx (ix2 h q)
      ((contrEquiv1 dot_S32x72_S72x4096_S32x4096_1_0_0_1_n_n 72 rfl rfl).symm c) = ix2 c q := by
    funext ax; apply Fin.ext
    match ax with
    | ⟨0, _⟩ =>
      exact (DotDims.rhsIdx_val_of_single dot_S32x72_S72x4096_S32x4096_1_0_0_1_n_n (cr := 0) rfl (ix2 h q) _).trans c2
    | ⟨1, _⟩ => simp [DotDims.rhsIdx, dot_S32x72_S72x4096_S32x4096_1_0_0_1_n_n] <;> rfl
  rw [l2, r2]

/-- The second product, 1×32 by 32×4096 into a zero accumulator, at (0, q): the sum over the 32 units. -/
theorem matmul2_apply (A : FVec Ideal S1x32 .bf16) (B : FVec Ideal S32x4096 .bf16) (p : Fin 1) (q : Fin 4096) :
    matmul dot_S1x32_S32x4096_S1x4096_1_0_0_1_n_n none A B (constant (F := Ideal) S1x4096 .f32 0x00000000#32) (ix2 p q)
      = ∑ h : Fin 32, A (ix2 p h) * B (ix2 h q) := by
  show FloatOps.matmul dot_S1x32_S32x4096_S1x4096_1_0_0_1_n_n none A B _ (ix2 p q) = _
  rw [Ideal.matmul_constant_zero_apply,
    ← Equiv.sum_comp (contrEquiv1 dot_S1x32_S32x4096_S1x4096_1_0_0_1_n_n 32 rfl rfl).symm]
  refine Finset.sum_congr rfl fun c _ => ?_
  have c2 := contrEquiv1_symm_val dot_S1x32_S32x4096_S1x4096_1_0_0_1_n_n 32 rfl rfl c
  have l2 : dot_S1x32_S32x4096_S1x4096_1_0_0_1_n_n.lhsIdx (ix2 p q)
      ((contrEquiv1 dot_S1x32_S32x4096_S1x4096_1_0_0_1_n_n 32 rfl rfl).symm c) = ix2 p c := by
    funext ax; apply Fin.ext
    match ax with
    | ⟨0, _⟩ => simp [DotDims.lhsIdx, dot_S1x32_S32x4096_S1x4096_1_0_0_1_n_n] <;> rfl
    | ⟨1, _⟩ =>
      exact (DotDims.lhsIdx_val_of_single dot_S1x32_S32x4096_S1x4096_1_0_0_1_n_n (cl := 1) rfl (ix2 p q) _).trans c2
  have r2 : dot_S1x32_S32x4096_S1x4096_1_0_0_1_n_n.rhsIdx (ix2 p q)
      ((contrEquiv1 dot_S1x32_S32x4096_S1x4096_1_0_0_1_n_n 32 rfl rfl).symm c) = ix2 c q := by
    funext ax; apply Fin.ext
    match ax with
    | ⟨0, _⟩ =>
      exact (DotDims.rhsIdx_val_of_single dot_S1x32_S32x4096_S1x4096_1_0_0_1_n_n (cr := 0) rfl (ix2 p q) _).trans c2
    | ⟨1, _⟩ => simp [DotDims.rhsIdx, dot_S1x32_S32x4096_S1x4096_1_0_0_1_n_n] <;> rfl
  rw [l2, r2]

/-! ## The concatenations along the rows -/

/-- A 3-row piece over a 5-row piece: a row below 3 is the first piece's row. -/
theorem cat35_lt (e : S3x4096.Idx → EReal) (z : S5x4096.Idx → EReal)
    (h : Shape.Concatenates [S3x4096, S5x4096] S8x4096 0) (p : Fin 8) (q : Fin 4096) (hp : p.val < 3) :
    concatenate S8x4096 0 [⟨S3x4096, e⟩, ⟨S5x4096, z⟩] h (ix2 p q) = e (ix2 (⟨p.val, hp⟩ : Fin 3) q) := by
  refine concatenate_pair_apply_left 0 e z h (ix2 p q) rfl (ix2 (⟨p.val, hp⟩ : Fin 3) q) fun b => ?_
  match b with
  | ⟨0, _⟩ => rfl
  | ⟨1, _⟩ => rfl

/-- A 3-row piece over a 5-row piece: a row from 3 on is the second piece's row, three less. -/
theorem cat35_ge (e : S3x4096.Idx → EReal) (z : S5x4096.Idx → EReal)
    (h : Shape.Concatenates [S3x4096, S5x4096] S8x4096 0) (p : Fin 8) (q : Fin 4096) (hp : 3 ≤ p.val) :
    concatenate S8x4096 0 [⟨S3x4096, e⟩, ⟨S5x4096, z⟩] h (ix2 p q)
      = z (ix2 (⟨p.val - 3, by have := p.isLt; omega⟩ : Fin 5) q) := by
  refine concatenate_pair_apply_right 0 e z h (ix2 p q) rfl rfl
    (ix2 (⟨p.val - 3, by have := p.isLt; omega⟩ : Fin 5) q) (fun b hb => ?_) ?_
  · match b with
    | ⟨0, _⟩ => exact absurd rfl hb
    | ⟨1, _⟩ => rfl
  · show (p.val - 3) + 3 = p.val
    omega

/-- Nine 8-row pieces one over the other: row 8g + p is piece g's row p. -/
theorem cat9_apply (P : Fin 9 → S8x4096.Idx → EReal)
    (h : Shape.Concatenates [S8x4096, S8x4096, S8x4096, S8x4096, S8x4096, S8x4096, S8x4096, S8x4096, S8x4096] S72x4096 0)
    (g : Fin 9) (p : Fin 8) (q : Fin 4096) :
    concatenate S72x4096 0 [⟨S8x4096, P 0⟩, ⟨S8x4096, P 1⟩, ⟨S8x4096, P 2⟩, ⟨S8x4096, P 3⟩, ⟨S8x4096, P 4⟩,
        ⟨S8x4096, P 5⟩, ⟨S8x4096, P 6⟩, ⟨S8x4096, P 7⟩, ⟨S8x4096, P 8⟩] h
        (ix2 (⟨8 * g.val + p.val, by have := g.isLt; have := p.isLt; omega⟩ : Fin 72) q)
      = P g (ix2 p q) := by
  refine concatenate_ofFn_apply (t := S72x4096) (s₁ := S8x4096) 0 P h rfl 8 rfl
    (ix2 (⟨8 * g.val + p.val, by have := g.isLt; have := p.isLt; omega⟩ : Fin 72) q) g ?_ (ix2 p q) ?_ (fun b hb => ?_)
  · show (8 * g.val + p.val) / 8 = g.val
    have := p.isLt; omega
  · show p.val = (8 * g.val + p.val) % 8
    have := p.isLt; omega
  · match b with
    | ⟨0, _⟩ => exact absurd rfl hb
    | ⟨1, _⟩ => rfl

end Cert.KernelIdeal.Payload

end
-- ==== Proof.Payload.lean ====
/-
  The kernel body's arithmetic at one lane.  The body pads the nine feature triples of a point to nine groups of
  eight rows, multiplies the padded 32×72 weights into the 72 rows, adds the bias column, takes the maximum with
  zero, multiplies the 1×32 second-layer weights in, adds its bias and takes the maximum with zero again.  Read at
  lane q, where the loaded block holds point n, the 72-row sum regroups into the double sum over triples and
  coordinates of feature·weight, and the result is the network's output at n.
-/
import proofs.«177924_j11991548690836_2_alg».proof.Proof.Gen.KernelIdeal.Skeleton
import proofs.«177924_j11991548690836_2_alg».proof.Proof.Spec
import proofs.«177924_j11991548690836_2_alg».proof.Proof.Regroup
import proofs.«177924_j11991548690836_2_alg».proof.Proof.PayloadPieces

noncomputable section

open scoped BigOperators

namespace Cert.KernelIdeal.Payload

open Cert.KernelIdeal Cert.KernelIdeal.Gen Idealize.ShloMosaic Idealize.ShloMosaic.ValueIdx

/-! ## The body's term, in layers -/

/-- The nine 3-row feature pieces of a loaded 3×4096 block: the block itself, then for each of the four
    frequencies the sines and the cosines of the block times the frequency. -/
def encVec (v : S3x4096.Idx → EReal) : Fin 9 → S3x4096.Idx → EReal
  | ⟨0, _⟩ => v
  | ⟨1, _⟩ => sin (F := Ideal) (φ := .f32) (mulf (F := Ideal) (φ := .f32) v (broadcast S3x4096 (Scalar.ofBits (F := Ideal) .f32 0x3F800000#32)))
  | ⟨2, _⟩ => cos (F := Ideal) (φ := .f32) (mulf (F := Ideal) (φ := .f32) v (broadcast S3x4096 (Scalar.ofBits (F := Ideal) .f32 0x3F800000#32)))
  | ⟨3, _⟩ => sin (F := Ideal) (φ := .f32) (mulf (F := Ideal) (φ := .f32) v (broadcast S3x4096 (Scalar.ofBits (F := Ideal) .f32 0x41214517#32)))
  | ⟨4, _⟩ => cos (F := Ideal) (φ := .f32) (mulf (F := Ideal) (φ := .f32) v (broadcast S3x4096 (Scalar.ofBits (F := Ideal) .f32 0x41214517#32)))
  | ⟨5, _⟩ => sin (F := Ideal) (φ := .f32) (mulf (F := Ideal) (φ := .f32) v (broadcast S3x4096 (Scalar.ofBits (F := Ideal) .f32 0x42CB2FF4#32)))
  | ⟨6, _⟩ => cos (F := Ideal) (φ := .f32) (mulf (F := Ideal) (φ := .f32) v (broadcast S3x4096 (Scalar.ofBits (F := Ideal) .f32 0x42CB2FF4#32)))
  | ⟨7, _⟩ => sin (F := Ideal) (φ := .f32) (mulf (F := Ideal) (φ := .f32) v (broadcast S3x4096 (Scalar.ofBits (F := Ideal) .f32 0x44800000#32)))
  | ⟨_ + 8, _⟩ => cos (F := Ideal) (φ := .f32) (mulf (F := Ideal) (φ := .f32) v (broadcast S3x4096 (Scalar.ofBits (F := Ideal) .f32 0x44800000#32)))

/-- A 3-row piece over five rows of the f32 zero. -/
def piece (e : S3x4096.Idx → EReal) : S8x4096.Idx → EReal :=
  concatenate S8x4096 0 [⟨S3x4096, e⟩, ⟨S5x4096, broadcast S5x4096 (Scalar.ofBits (F := Ideal) .f32 0x00000000#32)⟩]
    concatenates_S3x4096_S5x4096_S8x4096_d0

/-- The 72-row table: the nine padded pieces one over the other. -/
def table (v : S3x4096.Idx → EReal) : S72x4096.Idx → EReal :=
  concatenate S72x4096 0 [⟨S8x4096, piece (encVec v 0)⟩, ⟨S8x4096, piece (encVec v 1)⟩, ⟨S8x4096, piece (encVec v 2)⟩,
      ⟨S8x4096, piece (encVec v 3)⟩, ⟨S8x4096, piece (encVec v 4)⟩, ⟨S8x4096, piece (encVec v 5)⟩,
      ⟨S8x4096, piece (encVec v 6)⟩, ⟨S8x4096, piece (encVec v 7)⟩, ⟨S8x4096, piece (encVec v 8)⟩]
    concatenates_S8x4096_S8x4096_S8x4096_S8x4096_S8x4096_S8x4096_S8x4096_S8x4096_S8x4096_S72x4096_d0

/-- The hidden layer as the body computes it from a 72-row table. -/
def hidVec (w : FVec Ideal S32x72 .bf16) (b : FVec Ideal S32x1 .f32) (T : FVec Ideal S72x4096 .f32) :
    FVec Ideal S32x4096 .f32 :=
  maximumf
    (addf (matmul dot_S32x72_S72x4096_S32x4096_1_0_0_1_n_n none w (truncf .bf16 T bitsLt_bf16_f32)
        (constant (F := Ideal) S32x4096 .f32 0x00000000#32))
      (broadcastTo S32x4096 b broadcasts_S32x1_S32x4096))
    (broadcast S32x4096 (Scalar.ofBits (F := Ideal) .f32 0x00000000#32))

/-- The output row as the body computes it from the hidden layer. -/
def outVec (w : FVec Ideal S1x32 .bf16) (b : FVec Ideal S1x1 .f32) (H : FVec Ideal S32x4096 .f32) :
    FVec Ideal S1x4096 .f32 :=
  maximumf
    (addf (matmul dot_S1x32_S32x4096_S1x4096_1_0_0_1_n_n none w (truncf .bf16 H bitsLt_bf16_f32)
        (constant (F := Ideal) S1x4096 .f32 0x00000000#32))
      (broadcastTo S1x4096 b broadcasts_S1x1_S1x4096))
    (broadcast S1x4096 (Scalar.ofBits (F := Ideal) .f32 0x00000000#32))

/-- The body's term is these layers composed (the shape cast of the loaded block to its own shape left in). -/
theorem pay5_struct (v2 : FVec Ideal S32x72 .bf16) (v4 : FVec Ideal S32x1 .f32) (v7 : FVec Ideal S1x32 .bf16)
    (v9 : FVec Ideal S1x1 .f32) (v16 : Vec Ideal S3x4096 .f32) :
    k0_pay5 (F := Ideal) v2 v4 v7 v9 v16
      = outVec v7 v9 (hidVec v2 v4 (table (shapeCast S3x4096 v16 shapeCasts_S3x4096_S3x4096))) := rfl

/-! ## The layers at an index -/

/-- The hidden layer at unit h, lane q: the 72-row sum plus the bias, against the f32 zero. -/
theorem hidVec_apply (w : FVec Ideal S32x72 .bf16) (b : FVec Ideal S32x1 .f32) (T : FVec Ideal S72x4096 .f32)
    (h : Fin 32) (q : Fin 4096) :
    hidVec w b T (ix2 h q)
      = max ((∑ r : Fin 72, w (ix2 h r) * T (ix2 r q)) + b (ix2 h (0 : Fin 1))) Cert.Spec.zero := by
  unfold hidVec
  rw [maximumf_apply, addf_apply, matmul1_apply, bcast_col32]
  rfl

/-- The output row at lane q: the 32-unit sum plus the bias, against the f32 zero. -/
theorem outVec_apply (w : FVec Ideal S1x32 .bf16) (b : FVec Ideal S1x1 .f32) (H : FVec Ideal S32x4096 .f32)
    (q : Fin 4096) :
    outVec w b H (ix2 (0 : Fin 1) q)
      = max ((∑ h : Fin 32, w (ix2 (0 : Fin 1) h) * H (ix2 h q)) + b (ix2 (0 : Fin 1) (0 : Fin 1))) Cert.Spec.zero := by
  unfold outVec
  rw [maximumf_apply, addf_apply, matmul2_apply, bcast_col1]
  rfl

/-! ## The 72-row table at an index -/

/-- Row 8g + p of the table is row p of the g-th padded piece. -/
theorem table_at (v : S3x4096.Idx → EReal) (g : Fin 9) (p : Fin 8) (q : Fin 4096) :
    table v (ix2 (⟨8 * g.val + p.val, by have := g.isLt; have := p.isLt; omega⟩ : Fin 72) q)
      = piece (encVec v g) (ix2 p q) :=
  cat9_apply (fun g => piece (encVec v g))
    concatenates_S8x4096_S8x4096_S8x4096_S8x4096_S8x4096_S8x4096_S8x4096_S8x4096_S8x4096_S72x4096_d0 g p q

/-- At a feature position the table holds the feature piece's entry. -/
theorem table_feature (v : S3x4096.Idx → EReal) (g : Fin 9) (j : Fin 3) (q : Fin 4096) :
    table v (ix2 (row g j) q) = encVec v g (ix2 j q) := by
  have hj : j.val < 8 := by have := j.isLt; omega
  refine (table_at v g ⟨j.val, hj⟩ q).trans ?_
  exact cat35_lt (encVec v g) _ concatenates_S3x4096_S5x4096_S8x4096_d0 ⟨j.val, hj⟩ q j.isLt

/-- At a padding position the table holds the f32 zero. -/
theorem table_pad (v : S3x4096.Idx → EReal) (r : Fin 72) (hr : 3 ≤ r.val % 8) (q : Fin 4096) :
    table v (ix2 r q) = Cert.Spec.zero := by
  have hg : r.val / 8 < 9 := by have := r.isLt; omega
  have hp : r.val % 8 < 8 := Nat.mod_lt _ (by decide)
  have er : r = (⟨8 * (⟨r.val / 8, hg⟩ : Fin 9).val + (⟨r.val % 8, hp⟩ : Fin 8).val,
      by have := r.isLt; show 8 * (r.val / 8) + r.val % 8 < 72; omega⟩ : Fin 72) :=
    Fin.ext (by show r.val = 8 * (r.val / 8) + r.val % 8; omega)
  refine (congrArg (fun t => table v (ix2 t q)) er).trans ?_
  refine (table_at v ⟨r.val / 8, hg⟩ ⟨r.val % 8, hp⟩ q).trans ?_
  refine (cat35_ge _ _ concatenates_S3x4096_S5x4096_S8x4096_d0 ⟨r.val % 8, hp⟩ q hr).trans ?_
  rfl

/-- Where lane q of the loaded block holds point n, the g-th feature piece at (j, q) is the encoding of n. -/
theorem encVec_apply (x : Cert.Spec.IX → EReal) (n : Fin 2097152) (q : Fin 4096) (v : S3x4096.Idx → EReal)
    (hv : ∀ j : Fin 3, v (ix2 j q) = x (ix2 n j)) (g : Fin 9) (j : Fin 3) :
    encVec v g (ix2 j q) = Cert.Spec.enc x n g j := by
  match g with
  | ⟨0, _⟩ => exact hv j
  | ⟨1, _⟩ => exact congrArg (fun t => Ideal.sin (t * Cert.Spec.freq 0)) (hv j)
  | ⟨2, _⟩ => exact congrArg (fun t => Ideal.cos (t * Cert.Spec.freq 0)) (hv j)
  | ⟨3, _⟩ => exact congrArg (fun t => Ideal.sin (t * Cert.Spec.freq 1)) (hv j)
  | ⟨4, _⟩ => exact congrArg (fun t => Ideal.cos (t * Cert.Spec.freq 1)) (hv j)
  | ⟨5, _⟩ => exact congrArg (fun t => Ideal.sin (t * Cert.Spec.freq 2)) (hv j)
  | ⟨6, _⟩ => exact congrArg (fun t => Ideal.cos (t * Cert.Spec.freq 2)) (hv j)
  | ⟨7, _⟩ => exact congrArg (fun t => Ideal.sin (t * Cert.Spec.freq 3)) (hv j)
  | ⟨8, _⟩ => exact congrArg (fun t => Ideal.cos (t * Cert.Spec.freq 3)) (hv j)
  | ⟨k + 9, hk⟩ => exact absurd hk (by omega)

/-- At a feature position the padded weights hold the weight of that feature. -/
theorem padded_row (W1 : Cert.Spec.IW1 → EReal) (h : Fin 32) (g : Fin 9) (j : Fin 3) :
    Cert.Spec.padded W1 (ix2 h (row g j)) = W1 (ix2 (Cert.Spec.feat g j) h) := by
  have hr : ((ix2 h (row g j) : (⟨2, ![32, 72]⟩ : Shape).Idx) 1).val % 8 < 3 := by
    show (8 * g.val + j.val) % 8 < 3
    have := j.isLt; omega
  have hf : Cert.Spec.padRow ((ix2 h (row g j) : (⟨2, ![32, 72]⟩ : Shape).Idx) 1) hr = Cert.Spec.feat g j :=
    Fin.ext (by
      show 3 * ((8 * g.val + j.val) / 8) + (8 * g.val + j.val) % 8 = 3 * g.val + j.val
      have := j.isLt; omega)
  unfold Cert.Spec.padded
  rw [dif_pos hr, hf]

/-! ## The body at one lane -/

/-- **The body's result at lane q is the network's output at the point that lane holds.** -/
theorem pay5_eq_out
    (x : Cert.Spec.IX → EReal) (W1 : Cert.Spec.IW1 → EReal) (b1 : Cert.Spec.IB1 → EReal) (W2 : Cert.Spec.IW2 → EReal)
    (b2 : Cert.Spec.IB2 → EReal) (n : Fin 2097152) (q : Fin 4096)
    (v0 : Vec Ideal S32x72 .f32) (v3 : Vec Ideal S32x1 .f32) (v5 : Vec Ideal S1x32 .f32) (v8 : Vec Ideal S1x1 .f32)
    (v16 : Vec Ideal S3x4096 .f32)
    (hv0 : ∀ i : S32x72.Idx, v0 i = Cert.Spec.padded W1 i)
    (hv3 : ∀ h : Fin 32, v3 (ix2 h 0) = b1 (ix1 h))
    (hv5 : ∀ h : Fin 32, v5 (ix2 0 h) = W2 (ix2 h 0))
    (hv8 : v8 (ix2 0 0) = b2 (ix1 0))
    (hv16 : ∀ j : Fin 3, v16 (ix2 j q) = x (ix2 n j)) :
    k0_pay5 (F := Ideal) (k0_pay1 v0) (k0_pay2 v3) (k0_pay3 v5) (k0_pay4 v8) v16 (ix2 (0 : Fin 1) q)
      = Cert.Spec.out x W1 b1 W2 b2 n := by
  have e1 : k0_pay1 (F := Ideal) v0 = v0 := shapeCast_self v0 _
  have e2 : k0_pay2 (F := Ideal) v3 = v3 := shapeCast_self v3 _
  have e3 : k0_pay3 (F := Ideal) v5 = v5 := shapeCast_self v5 _
  have e4 : k0_pay4 (F := Ideal) v8 = v8 := shapeCast_self v8 _
  rw [pay5_struct, e1, e2, e3, e4, shapeCast_self, outVec_apply]
  unfold Cert.Spec.out
  rw [hv8]
  refine congrArg (fun t => max (t + b2 (ix1 (0 : Fin 1))) Cert.Spec.zero) ?_
  refine Finset.sum_congr rfl fun h _ => ?_
  rw [hv5 h, mul_comm]
  refine congrArg (fun t => t * W2 (ix2 h (0 : Fin 1))) ?_
  rw [hidVec_apply, hv3 h]
  unfold Cert.Spec.hidden
  refine congrArg (fun t => max (t + b1 (ix1 h)) Cert.Spec.zero) ?_
  refine (sum72_regroup (fun r => v0 (ix2 h r) * table v16 (ix2 r q)) (fun r hr => ?_)).trans ?_
  · show v0 (ix2 h r) * table v16 (ix2 r q) = 0
    rw [table_pad v16 r hr q]
    show _ * Ideal.ofBits .f32 0x00000000#32 = 0
    rw [Ideal.ofBits_zero_f32, mul_zero]
  · refine Finset.sum_congr rfl fun g _ => Finset.sum_congr rfl fun j _ => ?_
    show v0 (ix2 h (row g j)) * table v16 (ix2 (row g j) q) = _
    rw [table_feature, encVec_apply x n q v16 hv16, hv0, padded_row, mul_comm]

end Cert.KernelIdeal.Payload

end
-- ==== Proof.RefRun.lean ====
/-
  The reference program's run.  Its @main is a straight line of twenty-six host operations once the two
  calls of the outlined relu functions are unfolded at their call sites (three operations each: the scalar
  zero, its broadcast, the maximum).  Every weakly fair execution terminates with the result buffer at the
  operations' composed term of the five argument arrays, stated here in named stages (the scaled
  coordinates, the 27-feature encoding, the hidden layer, the output), and the argument arrays unchanged.
-/
import proofs.«177924_j11991548690836_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call of a relu function unfolded into its three operations over the
    call's own buffers. -/
abbrev ops : List (HloOp τ sig (Elt F)) :=
  [ nullary main_cst (fun i => FloatOps.ofBits .f32 (lit0 (S4.rowMajor i))),
    unary main_arg0 main_v0 (broadcastInDim S2097152x1x3 ![0, 2] bcast_S2097152x3_S2097152x1x3_0_2 : (⟨S2097152x3, .f32⟩ : BufTy).Contents (Elt F) → (⟨S2097152x1x3, .f32⟩ : BufTy).Contents (Elt F)),
    unary main_cst main_v1 (broadcastInDim S4x1 ![0] bcast_S4_S4x1_0 : (⟨S4, .f32⟩ : BufTy).Contents (Elt F) → (⟨S4x1, .f32⟩ : BufTy).Contents (Elt F)),
    unary main_v1 main_v2 (broadcastInDim S1x4x1 ![1, 2] bcast_S4x1_S1x4x1_1_2 : (⟨S4x1, .f32⟩ : BufTy).Contents (Elt F) → (⟨S1x4x1, .f32⟩ : BufTy).Contents (Elt F)),
    unary main_v0 main_v3 (broadcastInDim S2097152x4x3 ![0, 1, 2] bcast_S2097152x1x3_S2097152x4x3_0_1_2 : (⟨S2097152x1x3, .f32⟩ : BufTy).Contents (Elt F) → (⟨S2097152x4x3, .f32⟩ : BufTy).Contents (Elt F)),
    unary main_v2 main_v4 (broadcastInDim S2097152x4x3 ![0, 1, 2] bcast_S1x4x1_S2097152x4x3_0_1_2 : (⟨S1x4x1, .f32⟩ : BufTy).Contents (Elt F) → (⟨S2097152x4x3, .f32⟩ : BufTy).Contents (Elt F)),
    binary main_v3 main_v4 main_v5 (mulf : (⟨S2097152x4x3, .f32⟩ : BufTy).Contents (Elt F) → (⟨S2097152x4x3, .f32⟩ : BufTy).Contents (Elt F) → (⟨S2097152x4x3, .f32⟩ : BufTy).Contents (Elt F)),
    unary main_v5 main_v6 (Host.sin : (⟨S2097152x4x3, .f32⟩ : BufTy).Contents (Elt F) → (⟨S2097152x4x3, .f32⟩ : BufTy).Contents (Elt F)),
    unary main_v5 main_v7 (Host.cos : (⟨S2097152x4x3, .f32⟩ : BufTy).Contents (Elt F) → (⟨S2097152x4x3, .f32⟩ : BufTy).Contents (Elt F)),
    binary main_v6 main_v7 main_v8 ((fun a b => concatenate S2097152x4x6 2 [⟨S2097152x4x3, a⟩, ⟨S2097152x4x3, b⟩] concatenates_S2097152x4x3_S2097152x4x3_S2097152x4x6_d2) : (⟨S2097152x4x3, .f32⟩ : BufTy).Contents (Elt F) → (⟨S2097152x4x3, .f32⟩ : BufTy).Contents (Elt F) → (⟨S2097152x4x6, .f32⟩ : BufTy).Contents (Elt F)),
    reshape main_v8 main_v9 rfl shapeCasts_S2097152x4x6_S2097152x24,
    binary main_arg0 main_v9 main_v10 ((fun a b => concatenate S2097152x27 1 [⟨S2097152x3, a⟩, ⟨S2097152x24, b⟩] concatenates_S2097152x3_S2097152x24_S2097152x27_d1) : (⟨S2097152x3, .f32⟩ : BufTy).Contents (Elt F) → (⟨S2097152x24, .f32⟩ : BufTy).Contents (Elt F) → (⟨S2097152x27, .f32⟩ : BufTy).Contents (Elt F)),
    binary main_v10 main_arg1 main_v11 ((fun l r => Host.dotGeneral dot_S2097152x27_S27x32_S2097152x32_1_0_0_1_n_n none l r) : (⟨S2097152x27, .f32⟩ : BufTy).Contents (Elt F) → (⟨S27x32, .f32⟩ : BufTy).Contents (Elt F) → (⟨S2097152x32, .f32⟩ : BufTy).Contents (Elt F)),
    unary main_arg2 main_v12 (broadcastInDim S1x32 ![1] bcast_S32_S1x32_1 : (⟨S32, .f32⟩ : BufTy).Contents (Elt F) → (⟨S1x32, .f32⟩ : BufTy).Contents (Elt F)),
    unary main_v12 main_v13 (broadcastInDim S2097152x32 ![0, 1] bcast_S1x32_S2097152x32_0_1 : (⟨S1x32, .f32⟩ : BufTy).Contents (Elt F) → (⟨S2097152x32, .f32⟩ : BufTy).Contents (Elt F)),
    binary main_v11 main_v13 main_v14 (addf : (⟨S2097152x32, .f32⟩ : BufTy).Contents (Elt F) → (⟨S2097152x32, .f32⟩ : BufTy).Contents (Elt F) → (⟨S2097152x32, .f32⟩ : BufTy).Contents (Elt F)),
    TRef.nullary main_call0.cst (constant S_ .f32 0x00000000#32),
    TRef.unary main_call0.cst main_call0.v0 (broadcastInDim S2097152x32 ![] bcast_S_S2097152x32),
    TRef.binary (.of main_v14) main_call0.v0 main_call0.v1 maximumf,
    binary main_v15 main_arg3 main_v16 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    unary main_arg4 main_v17 (broadcastInDim S1x1 ![1] bcast_S1_S1x1_1 : (⟨S1, .f32⟩ : BufTy).Contents (Elt F) → (⟨S1x1, .f32⟩ : BufTy).Contents (Elt F)),
    unary main_v17 main_v18 (broadcastInDim S2097152x1 ![0, 1] bcast_S1x1_S2097152x1_0_1 : (⟨S1x1, .f32⟩ : BufTy).Contents (Elt F) → (⟨S2097152x1, .f32⟩ : BufTy).Contents (Elt F)),
    binary main_v16 main_v18 main_v19 (addf : (⟨S2097152x1, .f32⟩ : BufTy).Contents (Elt F) → (⟨S2097152x1, .f32⟩ : BufTy).Contents (Elt F) → (⟨S2097152x1, .f32⟩ : BufTy).Contents (Elt F)),
    TRef.nullary main_call1.cst (constant S_ .f32 0x00000000#32),
    TRef.unary main_call1.cst main_call1.v0 (broadcastInDim S2097152x1 ![] bcast_S_S2097152x1),
    TRef.binary (.of main_v19) main_call1.v0 main_call1.v1 maximumf ]

set_option maxRecDepth 1024 in
/-- @main is that straight line: the two functions' bodies unfolded at their calls, both sides are one chain
    of host steps once sequencing is reassociated. -/
theorem main_eq (c : Dev nD) : main (F := F) c = seq ops := by
  simp only [main, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub ..,
    binary_bufs_sub .., unary_bufs_sub .., unary_bufs_sub .., binary_bufs_sub .., reshape_bufs_sub .., binary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., unary_bufs_sub .., binary_bufs_sub ..⟩

/-- At the compiled mesh, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term, in stages -/

section Term

variable (x : (⟨S2097152x3, .f32⟩ : BufTy).Contents (Elt F)) (W1 : (⟨S27x32, .f32⟩ : BufTy).Contents (Elt F))
  (b1 : (⟨S32, .f32⟩ : BufTy).Contents (Elt F)) (W2 : (⟨S32x1, .f32⟩ : BufTy).Contents (Elt F))
  (b2 : (⟨S1, .f32⟩ : BufTy).Contents (Elt F))

/-- The table of the four frequencies. -/
def tFreq : (⟨S4, .f32⟩ : BufTy).Contents (Elt F) := fun i => FloatOps.ofBits .f32 (lit0 (S4.rowMajor i))

/-- The coordinates scaled by each frequency: entry (n, f, j) is x(n, j) times frequency f. -/
def tScaled : (⟨S2097152x4x3, .f32⟩ : BufTy).Contents (Elt F) :=
  mulf
    (broadcastInDim S2097152x4x3 ![0, 1, 2] bcast_S2097152x1x3_S2097152x4x3_0_1_2
      (broadcastInDim S2097152x1x3 ![0, 2] bcast_S2097152x3_S2097152x1x3_0_2 x))
    (broadcastInDim S2097152x4x3 ![0, 1, 2] bcast_S1x4x1_S2097152x4x3_0_1_2
      (broadcastInDim S1x4x1 ![1, 2] bcast_S4x1_S1x4x1_1_2 (broadcastInDim S4x1 ![0] bcast_S4_S4x1_0 (tFreq (F := F)))))

/-- The 27 features of every point: the coordinates, then per frequency the three sines and the three cosines. -/
def tEnc : (⟨S2097152x27, .f32⟩ : BufTy).Contents (Elt F) :=
  concatenate S2097152x27 1
    [⟨S2097152x3, x⟩,
     ⟨S2097152x24, shapeCast S2097152x24
        (concatenate S2097152x4x6 2 [⟨S2097152x4x3, Host.sin (tScaled x)⟩, ⟨S2097152x4x3, Host.cos (tScaled x)⟩]
          concatenates_S2097152x4x3_S2097152x4x3_S2097152x4x6_d2)
        shapeCasts_S2097152x4x6_S2097152x24⟩]
    concatenates_S2097152x3_S2097152x24_S2097152x27_d1

/-- The hidden layer: the features times W1, plus b1 along the rows, maximum with the zero splat. -/
def tHidden : (⟨S2097152x32, .f32⟩ : BufTy).Contents (Elt F) :=
  maximumf
    (addf (Host.dotGeneral dot_S2097152x27_S27x32_S2097152x32_1_0_0_1_n_n none (tEnc x) W1)
      (broadcastInDim S2097152x32 ![0, 1] bcast_S1x32_S2097152x32_0_1 (broadcastInDim S1x32 ![1] bcast_S32_S1x32_1 b1)))
    (broadcastInDim S2097152x32 ![] bcast_S_S2097152x32 (constant S_ .f32 0x00000000#32))

/-- The output: the hidden layer times W2, plus b2 along the rows, maximum with the zero splat. -/
def tOut : (⟨S2097152x1, .f32⟩ : BufTy).Contents (Elt F) :=
  maximumf
    (addf (Host.dotGeneral dot_S2097152x32_S32x1_S2097152x1_1_0_0_1_n_n none (tHidden x W1 b1) W2)
      (broadcastInDim S2097152x1 ![0, 1] bcast_S1x1_S2097152x1_0_1 (broadcastInDim S1x1 ![1] bcast_S1_S1x1_1 b2)))
    (broadcastInDim S2097152x1 ![] bcast_S_S2097152x1 (constant S_ .f32 0x00000000#32))

end Term

/-- The fold at the result buffer is the staged term of the argument buffers' contents. -/
theorem out_eq (V : Valuation τ sig (Elt F)) :
    after ops V (main_v20 : DevRef τ sig)
      = tOut (V (main_arg0 : DevRef τ sig)) (V (main_arg1 : DevRef τ sig)) (V (main_arg2 : DevRef τ sig))
          (V (main_arg3 : DevRef τ sig)) (V (main_arg4 : DevRef τ sig)) := by
  after_results
  rfl

theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results
theorem arg2_eq (V : Valuation τ sig (Elt F)) :
    after ops V (main_arg2 : DevRef τ sig) = V (main_arg2 : DevRef τ sig) := by
  after_results
theorem arg3_eq (V : Valuation τ sig (Elt F)) :
    after ops V (main_arg3 : DevRef τ sig) = V (main_arg3 : DevRef τ sig) := by
  after_results
theorem arg4_eq (V : Valuation τ sig (Elt F)) :
    after ops V (main_arg4 : DevRef τ sig) = V (main_arg4 : DevRef τ sig) := by
  after_results

/-- On every device, from any memory with zero counters: every weakly fair execution of @main terminates with the
    result buffer at the staged term of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = tOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (out_eq _),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.ReferenceIdeal.Hand

end
-- ==== Proof.RefValue.lean ====
/-
  The reference program computes the specified network.  Read at an index, the composed term of its
  twenty-six operations is the specification's: the scaled coordinates are x(n,j)·w_f; feature k of the
  27-feature row is the coordinate itself for k < 3, and for k = 3 + 6f + s the sine of the scaled coordinate s
  when s < 3 and the cosine of the scaled coordinate s - 3 otherwise, which is triple g = k / 3, position k % 3 of
  the specification's encoding; each matrix product is the sum over the contracted coordinate, the sum over the
  27 features regrouped as nine triples; the bias rows read their one row; the relu zero is the f32 zero word.
  With the reference's run this gives: every execution ends with the result buffer at the specified array G of
  the five argument arrays, and the arguments unchanged.
-/
import proofs.«177924_j11991548690836_2_alg».proof.Proof.RefRun
import proofs.«177924_j11991548690836_2_alg».proof.Proof.Spec
import Idealize.ShloMosaic.Lib.Pipeline.Value
import Idealize.ShloMosaic.Lib.IdealHost
import Idealize.ShloMosaic.Lib.StackMember

noncomputable section

namespace Cert.ReferenceIdeal.Hand

open Cert.ReferenceIdeal Cert.ReferenceIdeal.Gen Idealize.ShloMosaic Idealize.ShloMosaic.ValueIdx Idealize.SL.Sem
open scoped BigOperators

/-- The frequency table at an index is the specification's frequency. -/
theorem tFreq_apply (f : Fin 4) : tFreq (F := Ideal) (ix1 f) = Cert.Spec.freq f := by
  have e : S4.rowMajor (ix1 f) = f := Fin.ext (Shape.rowMajor_val_one _)
  show Ideal.ofBits .f32 (lit0 (S4.rowMajor (ix1 f))) = _
  rw [e]
  fin_cases f <;> rfl

/-- The scaled coordinates at (n, f, j): coordinate j of point n times frequency f. -/
theorem tScaled_apply (x : Cert.Spec.IX → EReal) (n : Fin 2097152) (f : Fin 4) (j : Fin 3) :
    tScaled (F := Ideal) x (ix3 n f j) = x (ix2 n j) * Cert.Spec.freq f := by
  unfold tScaled
  rw [mulf_apply]
  rw [broadcastInDim_apply _ _ _ (ix3 n f j) (ix3 n (0 : Fin 1) j) (fun a => by match a with | ⟨0, _⟩ => rfl | ⟨1, _⟩ => rfl | ⟨2, _⟩ => rfl)]
  rw [broadcastInDim_apply _ _ _ (ix3 n (0 : Fin 1) j) (ix2 n j) (fun a => by match a with | ⟨0, _⟩ => rfl | ⟨1, _⟩ => rfl)]
  rw [broadcastInDim_apply _ _ _ (ix3 n f j) (ix3 (0 : Fin 1) f (0 : Fin 1)) (fun a => by match a with | ⟨0, _⟩ => rfl | ⟨1, _⟩ => rfl | ⟨2, _⟩ => rfl)]
  rw [broadcastInDim_apply _ _ _ (ix3 (0 : Fin 1) f (0 : Fin 1)) (ix2 f (0 : Fin 1)) (fun a => by match a with | ⟨0, _⟩ => rfl | ⟨1, _⟩ => rfl)]
  rw [broadcastInDim_apply _ _ _ (ix2 f (0 : Fin 1)) (ix1 f) (fun a => by match a with | ⟨0, _⟩ => rfl)]
  rw [tFreq_apply]

/-- The first three features of a point are its coordinates. -/
theorem tEnc_coord (x : Cert.Spec.IX → EReal) (n : Fin 2097152) (j : Fin 3) :
    tEnc (F := Ideal) x (ix2 n (⟨j.val, by omega⟩ : Fin 27)) = x (ix2 n j) := by
  unfold tEnc
  exact concatenate_pair_apply_left (t := S2097152x27) (s₁ := S2097152x3) (s₂ := S2097152x24) _ _ _ _ (ix2 n (⟨j.val, by omega⟩ : Fin 27)) rfl (ix2 n j)
    (fun b => by match b with | ⟨0, _⟩ => rfl | ⟨1, _⟩ => rfl)

/-- Feature 3 + 6f + j of point n is the sine of coordinate j scaled by frequency f: the trigonometric block's
    entry (n, f, j), in its sine half. -/
theorem tEnc_sin (x : Cert.Spec.IX → EReal) (n : Fin 2097152) (f : Fin 4) (j : Fin 3) :
    tEnc (F := Ideal) x (ix2 n (⟨3 + 6 * f.val + j.val, by omega⟩ : Fin 27))
      = Ideal.sin (x (ix2 n j) * Cert.Spec.freq f) := by
  unfold tEnc
  refine (concatenate_pair_apply_right (t := S2097152x27) (s₁ := S2097152x3) (s₂ := S2097152x24) _ _ _ _ (ix2 n (⟨3 + 6 * f.val + j.val, by omega⟩ : Fin 27)) rfl rfl
    (ix2 n (⟨6 * f.val + j.val, by omega⟩ : Fin 24))
    (fun b hb => by match b, hb with | ⟨0, _⟩, _ => rfl | ⟨1, _⟩, hb => exact absurd rfl hb)
    (by show 6 * f.val + j.val + 3 = 3 + 6 * f.val + j.val; omega)).trans ?_
  refine (shapeCast_apply (s := S2097152x4x6) (t := S2097152x24) _ _ (ix2 n (⟨6 * f.val + j.val, by omega⟩ : Fin 24)) (ix3 n f (⟨j.val, by omega⟩ : Fin 6))
    (by rw [Shape.rowMajor_val_two, Shape.rowMajor_val_three]
        show (n.val * 4 + f.val) * 6 + j.val = n.val * 24 + (6 * f.val + j.val); omega)).trans ?_
  refine (concatenate_pair_apply_left (t := S2097152x4x6) (s₁ := S2097152x4x3) (s₂ := S2097152x4x3) _ _ _ _ (ix3 n f (⟨j.val, by omega⟩ : Fin 6)) rfl (ix3 n f j)
    (fun b => by match b with | ⟨0, _⟩ => rfl | ⟨1, _⟩ => rfl | ⟨2, _⟩ => rfl)).trans ?_
  show Ideal.sin (tScaled (F := Ideal) x (ix3 n f j)) = _
  rw [tScaled_apply]

/-- Feature 6 + 6f + j of point n is the cosine of coordinate j scaled by frequency f: the trigonometric block's
    entry (n, f, 3 + j), in its cosine half. -/
theorem tEnc_cos (x : Cert.Spec.IX → EReal) (n : Fin 2097152) (f : Fin 4) (j : Fin 3) :
    tEnc (F := Ideal) x (ix2 n (⟨6 + 6 * f.val + j.val, by omega⟩ : Fin 27))
      = Ideal.cos (x (ix2 n j) * Cert.Spec.freq f) := by
  unfold tEnc
  refine (concatenate_pair_apply_right (t := S2097152x27) (s₁ := S2097152x3) (s₂ := S2097152x24) _ _ _ _ (ix2 n (⟨6 + 6 * f.val + j.val, by omega⟩ : Fin 27)) rfl rfl
    (ix2 n (⟨3 + 6 * f.val + j.val, by omega⟩ : Fin 24))
    (fun b hb => by match b, hb with | ⟨0, _⟩, _ => rfl | ⟨1, _⟩, hb => exact absurd rfl hb)
    (by show 3 + 6 * f.val + j.val + 3 = 6 + 6 * f.val + j.val; omega)).trans ?_
  refine (shapeCast_apply (s := S2097152x4x6) (t := S2097152x24) _ _ (ix2 n (⟨3 + 6 * f.val + j.val, by omega⟩ : Fin 24)) (ix3 n f (⟨3 + j.val, by omega⟩ : Fin 6))
    (by rw [Shape.rowMajor_val_two, Shape.rowMajor_val_three]
        show (n.val * 4 + f.val) * 6 + (3 + j.val) = n.val * 24 + (3 + 6 * f.val + j.val); omega)).trans ?_
  refine (concatenate_pair_apply_right (t := S2097152x4x6) (s₁ := S2097152x4x3) (s₂ := S2097152x4x3) _ _ _ _ (ix3 n f (⟨3 + j.val, by omega⟩ : Fin 6)) rfl rfl (ix3 n f j)
    (fun b hb => by match b, hb with | ⟨0, _⟩, _ => rfl | ⟨1, _⟩, _ => rfl | ⟨2, _⟩, hb => exact absurd rfl hb)
    (by show j.val + 3 = 3 + j.val; omega)).trans ?_
  show Ideal.cos (tScaled (F := Ideal) x (ix3 n f j)) = _
  rw [tScaled_apply]

/-- The 27 features as nine triples: triple g, position j is feature 3g + j. -/
theorem sum_feat {M : Type} [AddCommMonoid M] (F : Fin 27 → M) :
    ∑ k, F k = ∑ g : Fin 9, ∑ j : Fin 3, F (Cert.Spec.feat g j) := by
  rw [← Equiv.sum_comp (finProdFinEquiv (m := 9) (n := 3)) F, Fintype.sum_prod_type]
  refine Finset.sum_congr rfl fun g _ => Finset.sum_congr rfl fun j _ => ?_
  refine congrArg F (Fin.ext ?_)
  show j.val + 3 * g.val = 3 * g.val + j.val
  omega

/-- Feature 3g + j of point n is the specification's encoding of triple g at coordinate j. -/
theorem tEnc_feat (x : Cert.Spec.IX → EReal) (n : Fin 2097152) (g : Fin 9) (j : Fin 3) :
    tEnc (F := Ideal) x (ix2 n (Cert.Spec.feat g j)) = Cert.Spec.enc x n g j := by
  fin_cases g
  · exact (congrArg (fun k => tEnc (F := Ideal) x (ix2 n k))
      (Fin.ext (by show 3 * 0 + j.val = j.val; omega) : Cert.Spec.feat 0 j = (⟨j.val, by omega⟩ : Fin 27))).trans (tEnc_coord x n j)
  · exact tEnc_sin x n 0 j
  · exact tEnc_cos x n 0 j
  · exact tEnc_sin x n 1 j
  · exact tEnc_cos x n 1 j
  · exact tEnc_sin x n 2 j
  · exact tEnc_cos x n 2 j
  · exact tEnc_sin x n 3 j
  · exact tEnc_cos x n 3 j

/-- The first bias, laid along the rows and broadcast down the points. -/
theorem bias1_apply (b1 : Cert.Spec.IB1 → EReal) (n : Fin 2097152) (h : Fin 32) :
    broadcastInDim S2097152x32 ![0, 1] bcast_S1x32_S2097152x32_0_1 (broadcastInDim S1x32 ![1] bcast_S32_S1x32_1 b1) (ix2 n h)
      = b1 (ix1 h) := by
  rw [broadcastInDim_apply _ _ _ (ix2 n h) (ix2 (0 : Fin 1) h) (fun a => by match a with | ⟨0, _⟩ => rfl | ⟨1, _⟩ => rfl)]
  rw [broadcastInDim_apply _ _ _ (ix2 (0 : Fin 1) h) (ix1 h) (fun a => by match a with | ⟨0, _⟩ => rfl)]

/-- The second bias likewise. -/
theorem bias2_apply (b2 : Cert.Spec.IB2 → EReal) (n : Fin 2097152) :
    broadcastInDim S2097152x1 ![0, 1] bcast_S1x1_S2097152x1_0_1 (broadcastInDim S1x1 ![1] bcast_S1_S1x1_1 b2) (ix2 n (0 : Fin 1))
      = b2 (ix1 (0 : Fin 1)) := by
  rw [broadcastInDim_apply _ _ _ (ix2 n (0 : Fin 1)) (ix2 (0 : Fin 1) (0 : Fin 1)) (fun a => by match a with | ⟨0, _⟩ => rfl | ⟨1, _⟩ => rfl)]
  rw [broadcastInDim_apply _ _ _ (ix2 (0 : Fin 1) (0 : Fin 1)) (ix1 (0 : Fin 1)) (fun a => by match a with | ⟨0, _⟩ => rfl)]

/-- The hidden layer at (n, h) is the specification's. -/
theorem tHidden_apply (x : Cert.Spec.IX → EReal) (W1 : Cert.Spec.IW1 → EReal) (b1 : Cert.Spec.IB1 → EReal)
    (n : Fin 2097152) (h : Fin 32) :
    tHidden (F := Ideal) x W1 b1 (ix2 n h) = Cert.Spec.hidden x W1 b1 n h := by
  unfold tHidden Cert.Spec.hidden
  rw [maximumf_apply, addf_apply]
  have hd : Host.dotGeneral (F := Ideal) (φ₁ := .f32) (φ₂ := .f32) dot_S2097152x27_S27x32_S2097152x32_1_0_0_1_n_n none (tEnc (F := Ideal) x) W1 (ix2 n h)
      = ∑ c : Fin 27, tEnc (F := Ideal) x (ix2 n c) * W1 (ix2 c h) :=
    StackMember.dotGeneral_plain_apply (m := 2097152) (k := 27) (n := 32) (φ₁ := .f32) (φ₂ := .f32) none (tEnc (F := Ideal) x) W1 n h
  rw [hd, sum_feat, bias1_apply, broadcastInDim_scalar_apply, constant_apply]
  simp only [tEnc_feat]
  rfl

/-- The output at (n, 0) is the specification's. -/
theorem tOut_apply (x : Cert.Spec.IX → EReal) (W1 : Cert.Spec.IW1 → EReal) (b1 : Cert.Spec.IB1 → EReal)
    (W2 : Cert.Spec.IW2 → EReal) (b2 : Cert.Spec.IB2 → EReal) (n : Fin 2097152) :
    tOut (F := Ideal) x W1 b1 W2 b2 (ix2 n (0 : Fin 1)) = Cert.Spec.out x W1 b1 W2 b2 n := by
  unfold tOut Cert.Spec.out
  rw [maximumf_apply, addf_apply]
  have hd : Host.dotGeneral (F := Ideal) (φ₁ := .f32) (φ₂ := .f32) dot_S2097152x32_S32x1_S2097152x1_1_0_0_1_n_n none (tHidden (F := Ideal) x W1 b1) W2 (ix2 n (0 : Fin 1))
      = ∑ c : Fin 32, tHidden (F := Ideal) x W1 b1 (ix2 n c) * W2 (ix2 c (0 : Fin 1)) :=
    StackMember.dotGeneral_plain_apply (m := 2097152) (k := 32) (n := 1) (φ₁ := .f32) (φ₂ := .f32) none (tHidden (F := Ideal) x W1 b1) W2 n 0
  rw [hd, bias2_apply, broadcastInDim_scalar_apply, constant_apply]
  simp only [tHidden_apply]
  rfl

/-- The composed term of the reference's operations is the specification's result array. -/
theorem tOut_eq_G (x : Cert.Spec.IX → EReal) (W1 : Cert.Spec.IW1 → EReal) (b1 : Cert.Spec.IB1 → EReal)
    (W2 : Cert.Spec.IW2 → EReal) (b2 : Cert.Spec.IB2 → EReal) :
    tOut (F := Ideal) x W1 b1 W2 b2 = Cert.Spec.G x W1 b1 W2 b2 := by
  funext i
  obtain ⟨n, z, rfl⟩ : ∃ (n : Fin 2097152) (z : Fin 1), i = ix2 n z := ⟨i 0, i 1, eq_ix2 i⟩
  obtain rfl : z = 0 := Subsingleton.elim _ _
  exact tOut_apply x W1 b1 W2 b2 n

/-- At the ideal instance, on every device, from any memory with zero counters: every weakly fair execution of the
    reference's @main terminates with the result buffer at the specified array of the five argument arrays, and the
    argument arrays unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v20)
        = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun _ h c => ⟨(h c).1.trans (tOut_eq_G _ _ _ _ _), (h c).2⟩) (run_term (F := Ideal) m ρ)

end Cert.ReferenceIdeal.Hand

end
-- ==== Proof.lean ====
/-
  The certificate: the Pallas kernel (a 27-feature positional encoding padded to 72 rows, a 27→32→1 network with
  two relus, evaluated lane-major on blocks of 65536 points in sixteen chunks of 4096) against the plain jnp
  reference, as extended reals.

  Both programs compute, at every point n, relu(Σ_h relu(Σ_{g,j} enc(n,g,j)·W1(3g+j,h) + b1(h))·W2(h,0) + b2(0)):
  the specification G of the five argument arrays. On the kernel's side the wrapper's transposes, reshapes and
  nine row-block writes give the body W1 transposed and padded with zero rows; the body's first product runs over
  the 72 padded rows, of which the 45 padding rows contribute zero times zero, and what remains is the reference's
  sum over the 27 features in another order, each product commuted; the body's sixteen stores tile the block, the
  32 blocks tile the output row, and the last reshape turns the row into the column. On the reference's side the
  broadcast, concatenate and reshape operations lay the same 27 features out feature by feature. No step needs the
  inputs to be finite: the laws used are commutativity and associativity of + and ·, and 0·a = 0.

  The three frames are the generated frame runs (the reference's is its run with the result dropped); the kernel's
  idealization rewrote nothing, so its conjunct is True.
-/
import proofs.«177924_j11991548690836_2_alg».proof.Defs
import proofs.«177924_j11991548690836_2_alg».proof.Proof.Gen.Kernel.Frame
import proofs.«177924_j11991548690836_2_alg».proof.Proof.Gen.KernelIdeal.Frame
import proofs.«177924_j11991548690836_2_alg».proof.Proof.Gen.ReferenceIdeal
import proofs.«177924_j11991548690836_2_alg».proof.Proof.Gen.Pre_finite_inputs
import proofs.«177924_j11991548690836_2_alg».proof.Proof.KernelRun
import proofs.«177924_j11991548690836_2_alg».proof.Proof.HostPrefix
import proofs.«177924_j11991548690836_2_alg».proof.Proof.Payload
import proofs.«177924_j11991548690836_2_alg».proof.Proof.RefValue

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both idealized programs end with the result at G of the argument arrays; the arrays agree, so the results do. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelRun.run m ρ (fun c => Cert.KernelIdeal.HostPrefix.v29_eq m c)
      Cert.KernelIdeal.Payload.pay5_eq_out, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
